-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x256x2048 : Shape := ⟨3, ![1, 256, 2048]⟩
abbrev S1x2048x512 : Shape := ⟨3, ![1, 2048, 512]⟩
abbrev S1x512x2048 : Shape := ⟨3, ![1, 512, 2048]⟩
abbrev S256x2048 : Shape := ⟨2, ![256, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .bf16⟩
  | .hbm, ⟨5, _⟩ => ⟨S8x2048x8192, .bf16⟩
  | .hbm, ⟨6, _⟩ => ⟨S8x4096x2048, .bf16⟩
  | .hbm, ⟨7, _⟩ => ⟨S8x1024x2048, .f32⟩
  | .hbm, ⟨8, _⟩ => ⟨S8192x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x256x2048, .f32⟩
  | .local _ .vmem, ⟨9, _⟩ => ⟨S1x256x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S256x2048_S1x256x2048 : S256x2048.ShapeCasts S1x256x2048
  shapeCasts_S8x1024x2048_S8192x2048 : S8x1024x2048.ShapeCasts S8192x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .bf16 = 32 ∨ (Rect.block (s := S8x1024x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .bf16 = 32 ∨ (Rect.block (s := S8x2048x8192) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x8192.size a
  hwx0_2 : ∀ i : grid0.Coords, EltTy.bits .bf16 = 32 ∨ (Rect.block (s := S8x2048x8192) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .bf16 = 32 ∨ (Rect.block (s := S8x4096x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x1024x2048.size a
  hwx0_4 : ∀ i : grid0.Coords, EltTy.bits .f32 = 32 ∨ (Rect.block (s := S8x1024x2048) S1x256x2048.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.LibSharedFrameTail.lean ====
/-
  A pipeline's frame run when several input windows read one array and the program goes on after the region.

  One region on a static grid, a kernel with no semaphore of its own, host operations before the region and straight
  lines of host operations after it. Several input windows may read one array, so the arrays behind the windows need not
  be distinct; how a shared array is dealt among its windows is the caller's statement (`hsplit`), as for a region with
  nothing after it. The lines after the region may read ONE window's array — an output window `wo` whose array no other
  window reads, held whole at the full share — and may read and write the buffers that bypass the region; they write no
  array. While they run, every other window's share of its array is set aside untouched.

  The conclusion is the usual one read after the lines: every window's array at the contents computed from the proof
  data after all write-backs, every bypassing buffer at what the lines leave from the region's exit.
-/
import Idealize.ShloMosaic.Lib.Pipeline.FrameSuffix

noncomputable section

namespace Cert.SharedLaunchTail

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.TcCoe Idealize.ShloMosaic.Rounds

variable {nD : Nat} {τ : Topo} {sig : RefSig} {Val : EltTy → Type}

/-! ## The lines after the region, reading one unshared array -/

section Lines

variable {Ix : Type} [DecidableEq Ix] {Name : Type} [DecidableEq Name] {U : Type} [URA U] {Lvl : Type}
variable {Λ₀ : Idealize.SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

variable (sig) in
/-- The device buffers the lines may touch: window `wo`'s array and the buffers that bypass the region. -/
def oneRefs {gr : Nat} {W : Nat} (win : Fin W → WinSpec sig gr) (wo : Fin W) : Finset (DevRef τ sig) :=
  (insert (arrRef win wo) (restRefs sig win)).map ⟨Proc.devRef (sig := sig) .tc, Proc.devRef_injective _⟩

omit [Fintype P] [DecidableEq P] in
/-- An operation's buffers are ones the lines may touch when they are TensorCore references (`h₁`) and none is the array
    of a window whose array is not `wo`'s (`h₂`). -/
theorem sub_oneRefs {gr : Nat} {W : Nat} (win : Fin W → WinSpec sig gr) (wo : Fin W) (op : HloOp τ sig Val)
    (h₁ : op.bufs ⊆ StableHlo.tcRefs τ sig)
    (h₂ : ∀ w, arrRef win w ≠ arrRef win wo → Proc.devRef .tc (arrRef win w) ∉ op.bufs) :
    op.bufs ⊆ oneRefs (τ := τ) sig win wo := by
  classical
  intro b hb
  have hu : b ∈ ucRefs τ sig := sub_ucRefs op h₁ hb
  simp only [oneRefs, ucRefs, StableHlo.tcRefs, restRefs, Finset.mem_map, Finset.mem_filter, Finset.mem_insert,
    Finset.mem_sdiff, Finset.mem_image, Finset.mem_univ, true_and, Function.Embedding.coeFn_mk] at hu ⊢
  obtain ⟨⟨r, rfl⟩, hr⟩ := hu
  refine ⟨r, ?_, rfl⟩
  by_cases h : ∃ w, arrRef win w = r
  · obtain ⟨w, rfl⟩ := h
    by_cases e : arrRef win w = arrRef win wo
    · exact Or.inl e
    · exact absurd hb (h₂ w e)
  · exact Or.inr ⟨hr, h⟩

omit [Fintype P] [DecidableEq P] in
/-- The region's exit contents read at the array of a window no other window shares its array with: that window's. -/
theorem withArrays_one {gr : Nat} {W : Nat} (win : Fin W → WinSpec sig gr) (wo : Fin W)
    (hwo : ∀ w, arrRef win w = arrRef win wo → w = wo)
    (c : Dev nD) (V : Valuation τ sig Val) (A : (w : Fin W) → Buf Val ((win w).arr.view.loc (c.tc : Thread nD τ))) :
    withArrays win c V A (Proc.devRef .tc (arrRef win wo)) = A wo := by
  unfold withArrays
  have h : ∃ w', Proc.devRef .tc (arrRef win w') = Proc.devRef (τ := τ) .tc (arrRef win wo) := ⟨wo, rfl⟩
  rw [dif_pos h]
  suffices ∀ (w' : Fin W) (e : Proc.devRef .tc (arrRef win w') = Proc.devRef (τ := τ) .tc (arrRef win wo)),
      cast (congrArg (fun b' : DevRef τ sig => b'.ty.Contents Val) e) (A w') = A wo from this _ h.choose_spec
  intro w' e
  obtain rfl : w' = wo := hwo w' (Proc.devRef_injective _ e)
  rfl

omit [Fintype P] [DecidableEq P] in
/-- Those buffers held at `Wv`: the one array, and the bypassing buffers. -/
theorem held_oneRefs {gr : Nat} {W : Nat} (win : Fin W → WinSpec sig gr) (wo : Fin W) (c : Dev nD) (Wv : Valuation τ sig Val) :
    (StableHlo.held (c.tc : Thread nD τ) (oneRefs sig win wo) Wv : sProp 𝕄)
      = iprop((((c.tc : Thread nD τ).loc (arrRef win wo)) ↦{fullShare} Wv (Proc.devRef .tc (arrRef win wo)))
          ∗ unscopedRest win c (fun b => Wv (Proc.devRef .tc b))) := by
  classical
  have hnr : arrRef win wo ∉ restRefs sig win := fun h =>
    (Finset.mem_sdiff.mp h).2 (Finset.mem_image.mpr ⟨wo, Finset.mem_univ _, rfl⟩)
  unfold StableHlo.held oneRefs unscopedRest
  rw [bigSep_map, BI.bigSep_insert hnr]
  rfl

omit [Fintype P] [DecidableEq P] in
set_option backward.isDefEq.respectTransparency.types false in
/-- The lines run from the one array at `A wo` and the bypassing buffers at `V` to the same array and the bypassing
    buffers at what the lines compute from the region's exit contents; `R` — the other windows' shares — is carried across. -/
theorem tail_seqs_one [Preorder Lvl] {gr : Nat} {W : Nat} (win : Fin W → WinSpec sig gr) (wo : Fin W)
    (hwo : ∀ w, arrRef win w = arrRef win wo → w = wo)
    (c : Dev nD) (V : Valuation τ sig Val) (A : (w : Fin W) → Buf Val ((win w).arr.view.loc (c.tc : Thread nD τ)))
    (opss : List (List (HloOp τ sig Val)))
    (hsub : ∀ ops ∈ opss, ∀ op ∈ ops, op.bufs ⊆ oneRefs sig win wo)
    (hfresh : ∀ ops ∈ opss, ∀ op ∈ ops, op.fresh = ∅)
    (hkeep : ∀ ops ∈ opss, ∀ op ∈ ops, Proc.devRef .tc (arrRef win wo) ∉ op.writes)
    (R : sProp 𝕄) (Q' : PUnit → sProp 𝕄) :
    iprop((iprop((((c.tc : Thread nD τ).loc (arrRef win wo)) ↦{fullShare} A wo)
              ∗ unscopedRest win c (fun b => StableHlo.after opss.flatten (withArrays win c V A) (Proc.devRef .tc b)) ∗ R) -∗ Q' ⟨⟩)
        ∗ boundary (c.tc : Thread nD τ) ∗ (((c.tc : Thread nD τ).loc (arrRef win wo)) ↦{fullShare} A wo)
        ∗ unscopedRest win c (fun b => V (Proc.devRef .tc b)) ∗ R)
      ⊢ wp frame (wpE 𝔻 𝕍 (c.tc : Thread nD τ) none) Set.univ (chain (opss.map StableHlo.seq)) Q' := by
  classical
  have hW : (StableHlo.held (c.tc : Thread nD τ) (oneRefs sig win wo) (withArrays win c V A) : sProp 𝕄)
      = iprop((((c.tc : Thread nD τ).loc (arrRef win wo)) ↦{fullShare} A wo) ∗ unscopedRest win c (fun b => V (Proc.devRef .tc b))) := by
    rw [held_oneRefs, withArrays_one win wo hwo c V A]
    congr 1
    unfold unscopedRest
    exact bigSep_congr fun b hb => by
      beta_reduce
      rw [withArrays_of_ne win c V A b fun w e => (Finset.mem_sdiff.mp hb).2 (Finset.mem_image.mpr ⟨w, Finset.mem_univ _, e⟩)]
  have hW' : (StableHlo.held (c.tc : Thread nD τ) (oneRefs sig win wo) (StableHlo.after opss.flatten (withArrays win c V A)) : sProp 𝕄)
      = iprop((((c.tc : Thread nD τ).loc (arrRef win wo)) ↦{fullShare} A wo)
          ∗ unscopedRest win c (fun b => StableHlo.after opss.flatten (withArrays win c V A) (Proc.devRef .tc b))) := by
    rw [held_oneRefs]
    congr 1
    rw [StableHlo.after_of_forall_not_mem _ _ fun op hop => ?_, withArrays_one win wo hwo c V A]
    obtain ⟨ops, hops, hop⟩ := List.mem_flatten.mp hop
    exact hkeep ops hops op hop
  rw [← List.append_nil (opss.map StableHlo.seq)]
  iintro ⟨Hk, Hb, Hp, Hz, Hr⟩
  iapply (wp_seqs_then pcs defs₀ 𝒱₀ c (oneRefs sig win wo) [] opss hsub hfresh (withArrays win c V A)) $$ [Hb Hp Hz]
  · rw [hW]
    isplitl [Hb]; · iexact Hb
    isplitl [Hp]; · iexact Hp
    iexact Hz
  iintro Hb
  rw [chain_nil, wp_pure, hW']
  imodintro
  iapply Hk
  icases Hb with ⟨-, Hp, Hz⟩
  isplitl [Hp]; · iexact Hp
  isplitl [Hz]; · iexact Hz
  iexact Hr

end Lines

/-! ## The frame run -/

section Run

variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a region whose input windows may share arrays, continued by the host lines `opss`, which read the
    array of the output window `wo` alone among the arrays (`hsub`), allocate nothing and write no array (`hkeep`). -/
theorem θ_run_frame_shared_around
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (wo : Fin (cfg).W) (hwo : ∀ w, arrRef (cfg).spec w = arrRef (cfg).spec wo → w = wo)
    (hfull : ∀ c, (dats p c).share wo = fullShare)
    (hsub : ∀ ops ∈ opss, ∀ op ∈ ops, op.bufs ⊆ oneRefs sig (cfg).spec wo)
    (hfresh : ∀ ops ∈ opss, ∀ op ∈ ops, op.fresh = ∅)
    (hkeep : ∀ ops ∈ opss, ∀ op ∈ ops, Proc.devRef .tc (arrRef (cfg).spec wo) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hin : ∀ c, ΦA (cfg).spec c ⊢ (dats p c).Φ 0)
    (hout : ∀ c, (dats p c).Φ (Fin.last (cfg).N) ⊢ ΦA (cfg).spec c) :
    θ_run 𝔻 (onTc main) (s₀ m g) (FramePost cfgs dats p (afterTail₀ cfgs dats p V₀ opss)) := by
  classical
  exact Pipeline.θ_run_region_pf_tail (fun q => (cfgs q).toPCfg (Val := Val)) (fun q => (cfgs q).toPCfg_adm) dats () hcell p hw
    (OwnSemFacts.none (cfg).spec) (PreFacts.none _) emb₁ defs₀ 𝒱₀ m g main (fun _ => chain (opss.map StableHlo.seq)) hbody hne harr hstage howed
    (G := fun _ => iprop(emp)) (u₀ := initOf (cells cfgs hcell) (launchToks cfgs hcell))
    (hu₀ := by
      iintro Hu; imodintro
      isplitl [Hu]
      · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (afterTail₀ cfgs dats p V₀ opss c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (htail := fun c Q' => by
      have harr_eq : ∀ F : (w : Fin (cfg).W) → Buf Val (((cfg).win w).arr.view.loc (c.tc : Thread nD τ)),
          ((dats p c).arrays F : sProp 𝕄)
            = iprop((((c.tc : Thread nD τ).loc (arrRef (cfg).spec wo)) ↦{fullShare} F wo)
                ∗ bigSep (Finset.univ.erase wo) fun w : Fin (cfg).W =>
                    ((cfg).win w).arr.view.loc (c.tc : Thread nD τ) ↦[((cfg).win w).arr.view.set]{(dats p c).share w} F w) := fun F => by
        unfold Dat.arrays
        rw [BI.bigSep_univ_split wo]
        congr 1
        rw [(harr wo).set_eq_univ, hfull c]
      rw [harr_eq]
      iintro ⟨Hk, Hb, ⟨Hp, Hr⟩, Hz⟩
      iapply (tail_seqs_one (fun q => (cfgs q).toPCfg (Val := Val)) defs₀ 𝒱₀ (cfg).spec wo hwo c (V₀ c)
        (fun w => (dats p c).arrAt w (cfg).N) opss hsub hfresh hkeep _ Q')
      isplitl [Hk]
      · iintro ⟨Hp, Hz, Hr⟩
        iapply Hk
        isplitl [Hp Hr]
        · isplitl [Hp]; · iexact Hp
          iexact Hr
        iexact Hz
      isplitl [Hb]; · iexact Hb
      isplitl [Hp]; · iexact Hp
      isplitl [Hz]; · iexact Hz
      iexact Hr)
    (QY := fun c s => ∀ b ∈ restRefs sig (cfg).spec, s.mem ((c.tc : Thread nD τ).loc b) = afterTail₀ cfgs dats p V₀ opss c b)
    (hY := fun c s' => by
      iintro ⟨-, HU, HSI⟩
      unfold unscopedRest
      imodintro
      iapply (pointsTo_read_all (restRefs sig (cfg).spec) (fun b => (c.tc : Thread nD τ).loc b) (afterTail₀ cfgs dats p V₀ opss c) s')
      isplitl [HU] <;> iassumption)
    (hQ := fun s h c => ⟨(h c).1, (h c).2.2⟩)

end Run

end Cert.SharedLaunchTail

end
-- ==== Proof.KFrameBase.lean ====
/-
  The expert kernel's run, first part: what surrounds the body.

  The program reshapes the hidden states to `[8, 1024, 2048]`, changes the three arrays' float format, runs one region on
  the grid `8 × 4 × 8` (expert, token tile, feature tile) and reshapes the region's result back. The region has five
  windows: the token tile, the gate tile and the up tile — two windows on ONE array, the gate/up weights, at column blocks
  `j` and `8 + j` —, the down tile, and the result tile, which is written back at the last feature tile only. A scratch
  accumulator is carried along the feature-tile axis: reset at feature tile 0, added to at every tile, copied into the
  result tile at feature tile 7.

  Here: the buffers as the region finds them, the lines after the region, the blocks of the windows, the two conditions of
  the body decided over the grid, and where the result window is idle.
-/
import proofs.«107709_j11020886082286_1_alg».proof.Proof.Gen.Kernel.Launch
import proofs.«107709_j11020886082286_1_alg».proof.Proof.Gen.Kernel.Skeleton
import proofs.«107709_j11020886082286_1_alg».proof.Proof.Gen.Kernel.Points
import proofs.«107709_j11020886082286_1_alg».proof.Proof.LibSharedFrameTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the four lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The result window is the only window on its array. -/
theorem out_alone : ∀ w : Fin 5, Pipeline.arrRef spec0 w = Pipeline.arrRef spec0 4 → w = 4 := by decide

/-- The line after the region reads the result window's array and writes a buffer that is no window's array. -/
theorem sfx_sub : ∀ ops ∈ ([hostOps1] : List (List (HloOp τ sig (Elt F)))), ∀ op ∈ ops,
    op.bufs ⊆ Cert.SharedLaunchTail.oneRefs (τ := τ) sig spec0 4 := by
  intro ops hops op hop
  simp only [List.mem_cons, List.mem_nil_iff, or_false] at hops
  rcases hops with rfl
  refine Cert.SharedLaunchTail.sub_oneRefs spec0 4 op ((List.forall_iff_forall_mem.mp hostOps1_sub) op hop) ?_
  simp only [hostOps1, List.mem_cons, List.mem_nil_iff, or_false] at hop
  rcases hop with rfl
  intro w hw
  rw [StableHlo.reshape_bufs, Finset.mem_insert, Finset.mem_singleton]
  revert hw
  fin_cases w
  · intro _ h; exact h.elim (StableHlo.devRef_ne_of_ne (by decide)) (StableHlo.devRef_ne_of_ne (by decide))
  · intro _ h; exact h.elim (StableHlo.devRef_ne_of_ne (by decide)) (StableHlo.devRef_ne_of_ne (by decide))
  · intro _ h; exact h.elim (StableHlo.devRef_ne_of_ne (by decide)) (StableHlo.devRef_ne_of_ne (by decide))
  · intro _ h; exact h.elim (StableHlo.devRef_ne_of_ne (by decide)) (StableHlo.devRef_ne_of_ne (by decide))
  · intro hw; exact absurd rfl hw
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It does not write the result window's array. -/
theorem sfx_keeps : ∀ ops ∈ ([hostOps1] : List (List (HloOp τ sig (Elt F)))), ∀ op ∈ ops,
    Proc.devRef .tc (Pipeline.arrRef spec0 4) ∉ op.writes := by
  intro ops hops op hop
  simp only [List.mem_cons, List.mem_nil_iff, or_false] at hops
  rcases hops with rfl
  simp only [hostOps1, List.mem_cons, List.mem_nil_iff, or_false] at hop
  rcases hop with rfl
  simp only [StableHlo.reshape_writes, Finset.mem_singleton]
  exact StableHlo.devRef_ne_of_ne (by decide)

/-! ## The arguments are kept -/

/-- No line before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- Nor does the line after it: a buffer `b` that is no window's array and is not the last line's result ends as the
    region found it. -/
theorem tail_keeps (dats : (p : Fin 1) → (c : Dev nD) → Dat τ (Elt F) Unit ℕ (UR sig nD τ) ℕ (cfgs p) c) (c : Dev nD)
    (b : Ref sig .tc) (hb : b ≠ main_v5) (ha : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is feature tile 0", as the body computes it from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is feature tile 7". -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from feature tile 7 the body stores nothing into the result tile, and the tile is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At feature tile 7 it stores the whole tile. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2048 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S256x2048 .f32 := Memref.whole cc0_scratch0
/-- The views through which the result tile's and the accumulator's contents are stated. -/
abbrev VO0_4 : View sig .tc .vmem S1x256x2048 .f32 := (Memref.whole cc0_stg4_0 : Memref sig .tc .vmem S1x256x2048 .f32).view
abbrev VS0_0 : View sig .tc .vmem S256x2048 .f32 := scM0_0.view

/-- What the body may use beside its windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.KRunA.lean ====
/-
  The body at feature tile 0 (the reset is taken, the copy into the result tile is not): on whole staging buffers — the four
  inputs at their contents, the result tile at contents it hands back untouched, the accumulator at anything — it runs to
  the end, leaving the inputs as they were and the accumulator with the pieces it stored (the zero fill, then the first
  tile's sum over it).
-/
import proofs.«107709_j11020886082286_1_alg».proof.Proof.KFrameBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at feature tile 0, with the pieces it leaves in the accumulator. -/
noncomputable def kernelRun0_A (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i)
    (x0 : Vec F S1x256x2048 .bf16) (x1 : Vec F S1x2048x512 .bf16) (x2 : Vec F S1x2048x512 .bf16) (x3 : Vec F S1x512x2048 .bf16) :
    Σ' (L4 : List (View.Piece (Elt F) S1x256x2048 .f32)), { LS0 : List (View.Piece (Elt F) S256x2048 .f32) //
      ∀ (xi4 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frame

end
-- ==== Proof.KRunB.lean ====
/-
  The body at feature tiles 1 to 6 (neither the reset nor the copy is taken): the accumulator comes in at what the tile
  before left and goes out with this tile's sum stored over it; the result tile is handed back untouched.
-/
import proofs.«107709_j11020886082286_1_alg».proof.Proof.KRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle feature tile, with the piece it leaves in the accumulator. -/
noncomputable def kernelRun0_B (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i)
    (x0 : Vec F S1x256x2048 .bf16) (x1 : Vec F S1x2048x512 .bf16) (x2 : Vec F S1x2048x512 .bf16) (x3 : Vec F S1x512x2048 .bf16) (xs0 : Vec F S256x2048 .f32) :
    Σ' (L4 : List (View.Piece (Elt F) S1x256x2048 .f32)), { LS0 : List (View.Piece (Elt F) S256x2048 .f32) //
      ∀ (xi4 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frame

end
-- ==== Proof.KRunC.lean ====
/-
  The body at feature tile 7 (the reset is not taken, the copy is): the accumulator comes in at what tile 6 left, goes out
  with the last tile's sum stored over it, and the result tile — taken at anything — goes out with the accumulator's final
  contents stored into it.
-/
import proofs.«107709_j11020886082286_1_alg».proof.Proof.KRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last feature tile, with the pieces it leaves in the result tile and in the accumulator. -/
noncomputable def kernelRun0_C (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i)
    (x0 : Vec F S1x256x2048 .bf16) (x1 : Vec F S1x2048x512 .bf16) (x2 : Vec F S1x2048x512 .bf16) (x3 : Vec F S1x512x2048 .bf16) (xs0 : Vec F S256x2048 .f32) :
    Σ' (L4 : List (View.Piece (Elt F) S1x256x2048 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Frame

end
-- ==== Proof.KFrameRun.lean ====
/-
  The expert kernel's run, last part: what the accumulator and the result tile hold after each grid point, the proof data
  of the pipeline, the body's obligation at every point, and the run of the whole program.

  After point `t` the accumulator holds what the body's case at `t` stored: at feature tile 0 the first tile's sum over the
  zero fill, at every later tile that tile's sum added to what the point before left. The result tile holds, after a point
  of feature tile 7, the accumulator's final contents; at the other points the body leaves it alone and it is not written
  back. The gate tile and the up tile read one array: its full share is dealt in two halves, one to each window.
-/
import proofs.«107709_j11020886082286_1_alg».proof.Proof.KRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At feature tile 0 nothing is stored into the result tile: a placeholder nothing consults. -/
def out0_A_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i) (x0 : Vec F S1x256x2048 .bf16) (x1 : Vec F S1x2048x512 .bf16) (x2 : Vec F S1x2048x512 .bf16) (x3 : Vec F S1x512x2048 .bf16) : Vec F S1x256x2048 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- The pieces stored into the accumulator at feature tile 0 cover it. -/
theorem scover0_A_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i) (x0 : Vec F S1x256x2048 .bf16) (x1 : Vec F S1x2048x512 .bf16) (x2 : Vec F S1x2048x512 .bf16) (x3 : Vec F S1x512x2048 .bf16) (y : S256x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S256x2048.size (by sl_kernel_rfl) y

/-- What feature tile 0 leaves in the accumulator. -/
def sout0_A_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i) (x0 : Vec F S1x256x2048 .bf16) (x1 : Vec F S1x2048x512 .bf16) (x2 : Vec F S1x2048x512 .bf16) (x3 : Vec F S1x512x2048 .bf16) : Vec F S256x2048 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- At a middle feature tile nothing is stored into the result tile either. -/
def out0_B_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i) (x0 : Vec F S1x256x2048 .bf16) (x1 : Vec F S1x2048x512 .bf16) (x2 : Vec F S1x2048x512 .bf16) (x3 : Vec F S1x512x2048 .bf16) (xs0 : Vec F S256x2048 .f32) : Vec F S1x256x2048 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

theorem scover0_B_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i) (x0 : Vec F S1x256x2048 .bf16) (x1 : Vec F S1x2048x512 .bf16) (x2 : Vec F S1x2048x512 .bf16) (x3 : Vec F S1x512x2048 .bf16) (xs0 : Vec F S256x2048 .f32) (y : S256x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S256x2048.size (by sl_kernel_rfl) y

/-- What a middle feature tile leaves in the accumulator, from what the tile before left (`xs0`). -/
def sout0_B_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i) (x0 : Vec F S1x256x2048 .bf16) (x1 : Vec F S1x2048x512 .bf16) (x2 : Vec F S1x2048x512 .bf16) (x3 : Vec F S1x512x2048 .bf16) (xs0 : Vec F S256x2048 .f32) : Vec F S256x2048 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- The piece stored into the result tile at feature tile 7 covers it. -/
theorem cover0_C_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) (y : S1x256x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x256x2048.size (by sl_kernel_rfl) y

/-- What feature tile 7 leaves in the result tile. -/
def out0_C_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) : Vec F S1x256x2048 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

theorem scover0_C_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) (y : S256x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S256x2048.size (by sl_kernel_rfl) y

/-- What feature tile 7 leaves in the accumulator. -/
def sout0_C_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) : Vec F S256x2048 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## Point by point -/

/-- What the result tile's staging buffer and the accumulator hold after the body at position `n`: the case the point is
    in, run on the point's blocks, the accumulator read at what position `n - 1` left. -/
def outsAt0 (c : Dev nD) : (n : ℕ) → n < cfg0.N → Vec F S1x256x2048 .f32 × Vec F S256x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a point of feature tile 0. -/
theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a point of a middle feature tile: over what the point before left. -/
theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of feature tile 7: over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the point
    before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the result tile's at
    `outsAt0`; the invariant `PhiS`; nothing owed; the gate/up array's share dealt in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's residue mod 8 says which case it is in; the
    invariant hands the body the accumulator at what the point before left (at anything at the very first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The shared array's share dealt among its windows -/

/-- The four distinct buffers behind the five windows, one by one. -/
theorem arrBufs0_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v2) ↦{fullShare} Vv main_v2)
          ∗ (((c : Thread nD τ).loc main_v3) ↦{fullShare} Vv main_v3) ∗ (((c : Thread nD τ).loc main_v4) ↦{fullShare} Vv main_v4)) := by
  unfold Pipeline.arrBufs
  rw [show (Finset.univ.image (Pipeline.arrRef spec0) : Finset (Ref sig .tc)) = {main_v1, main_v2, main_v3, main_v4} from by decide]
  rw [BI.bigSep_insert (by decide), BI.bigSep_insert (by decide), BI.bigSep_insert (by decide), BI.bigSep_singleton]
  rfl

/-- The four buffers behind the five windows, each whole at the full share, give every window its array at its share:
    the gate/up array's full share is the two halves, one for the gate window and one for the up window. -/
theorem hsplit (c : Dev nD) :
    (Pipeline.arrBufs spec0 c (V m c) : sProp 𝕄) ⊢ (dats m 0 c).arrays ((dats m 0 c).arrAt · 0) := by
  rw [arrBufs0_eq]
  unfold Dat.arrays
  rw [bigSep_W0]
  rw [(arr_whole0 0).set_eq_univ, (arr_whole0 1).set_eq_univ, (arr_whole0 3).set_eq_univ, (arr_whole0 4).set_eq_univ]
  iintro ⟨H1, H2, H3, H4⟩
  have hsh : ((((c : Thread nD τ).loc main_v2) ↦{fullShare} V m c main_v2) : sProp 𝕄)
      ⊢ iprop((((c : Thread nD τ).loc main_v2) ↦{fullShare.left} V m c main_v2) ∗ (((c : Thread nD τ).loc main_v2) ↦{fullShare.right} V m c main_v2)) :=
    (pointsTo_share (PosShare.mem_left_op_right fullShare)).1
  ihave H2' := hsh $$ H2
  icases H2' with ⟨H2a, H2b⟩
  isplitl [H1]; · iexact H1
  isplitl [H2a]; · iexact H2a
  isplitl [H2b]; · iexact H2b
  isplitl [H3]; · iexact H3
  iexact H4

/-! ## The run -/

set_option backward.isDefEq.respectTransparency.types false in
/-- Every weakly fair execution of the program terminates, every window's array ending at what the proof data compute
    and every other buffer at what the last line leaves. -/
theorem run_main : θ_run defs (onTc (τ := τ) (main (F := F))) (s₀ m ρ) (Pipeline.FramePost cfgs (dats m) 0 (Pipeline.afterTail₀ cfgs (dats m) 0 (V0 m) [hostOps1])) :=
  Cert.SharedLaunchTail.θ_run_frame_shared_around cfgs (dats m) (0 : Fin 1) defs₀ Variants.none cellOf_inj winFacts₀0 block_pos0 arr_whole0 stage_whole0
    m ρ main (hbody := fun c => (body_obligation m c).loose) (howed := fun _ _ => rfl) (V₀ := V0 m) (opss := [hostOps1])
    (wo := 4) (hwo := out_alone) (hfull := fun _ => rfl) (hsub := sfx_sub) (hfresh := sfx_fresh) (hkeep := sfx_keeps)
    (hmain := hmain m Variants.none) (hsplit := hsplit m) (hin := hin m) (hout := hout m)

/-- The program terminates and its three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans ((tail_keeps m (dats m) c main_arg0 (by decide) (by decide)).trans (V_main_arg0 m c)),
     ((h c).2 main_arg1 (Pipeline.mem_restRefs_of main_arg1 (by decide) (by decide))).trans ((tail_keeps m (dats m) c main_arg1 (by decide) (by decide)).trans (V_main_arg1 m c)),
     ((h c).2 main_arg2 (Pipeline.mem_restRefs_of main_arg2 (by decide) (by decide))).trans ((tail_keeps m (dats m) c main_arg2 (by decide) (by decide)).trans (V_main_arg2 m c))⟩) (run_main m ρ)

end Cert.Kernel.Frame

end
-- ==== Proof.FrameBase.lean ====
/-
  The expert kernel's run, first part: what surrounds the body.

  The program reshapes the hidden states to `[8, 1024, 2048]`, changes the three arrays' float format, runs one region on
  the grid `8 × 4 × 8` (expert, token tile, feature tile) and reshapes the region's result back. The region has five
  windows: the token tile, the gate tile and the up tile — two windows on ONE array, the gate/up weights, at column blocks
  `j` and `8 + j` —, the down tile, and the result tile, which is written back at the last feature tile only. A scratch
  accumulator is carried along the feature-tile axis: reset at feature tile 0, added to at every tile, copied into the
  result tile at feature tile 7.

  Here: the buffers as the region finds them, the lines after the region, the blocks of the windows, the two conditions of
  the body decided over the grid, and where the result window is idle.
-/
import proofs.«107709_j11020886082286_1_alg».proof.Proof.Gen.KernelIdeal.Launch
import proofs.«107709_j11020886082286_1_alg».proof.Proof.Gen.KernelIdeal.Skeleton
import proofs.«107709_j11020886082286_1_alg».proof.Proof.Gen.KernelIdeal.Points
import proofs.«107709_j11020886082286_1_alg».proof.Proof.LibSharedFrameTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the four lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The result window is the only window on its array. -/
theorem out_alone : ∀ w : Fin 5, Pipeline.arrRef spec0 w = Pipeline.arrRef spec0 4 → w = 4 := by decide

/-- The line after the region reads the result window's array and writes a buffer that is no window's array. -/
theorem sfx_sub : ∀ ops ∈ ([hostOps1] : List (List (HloOp τ sig (Elt F)))), ∀ op ∈ ops,
    op.bufs ⊆ Cert.SharedLaunchTail.oneRefs (τ := τ) sig spec0 4 := by
  intro ops hops op hop
  simp only [List.mem_cons, List.mem_nil_iff, or_false] at hops
  rcases hops with rfl
  refine Cert.SharedLaunchTail.sub_oneRefs spec0 4 op ((List.forall_iff_forall_mem.mp hostOps1_sub) op hop) ?_
  simp only [hostOps1, List.mem_cons, List.mem_nil_iff, or_false] at hop
  rcases hop with rfl
  intro w hw
  rw [StableHlo.reshape_bufs, Finset.mem_insert, Finset.mem_singleton]
  revert hw
  fin_cases w
  · intro _ h; exact h.elim (StableHlo.devRef_ne_of_ne (by decide)) (StableHlo.devRef_ne_of_ne (by decide))
  · intro _ h; exact h.elim (StableHlo.devRef_ne_of_ne (by decide)) (StableHlo.devRef_ne_of_ne (by decide))
  · intro _ h; exact h.elim (StableHlo.devRef_ne_of_ne (by decide)) (StableHlo.devRef_ne_of_ne (by decide))
  · intro _ h; exact h.elim (StableHlo.devRef_ne_of_ne (by decide)) (StableHlo.devRef_ne_of_ne (by decide))
  · intro hw; exact absurd rfl hw
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It does not write the result window's array. -/
theorem sfx_keeps : ∀ ops ∈ ([hostOps1] : List (List (HloOp τ sig (Elt F)))), ∀ op ∈ ops,
    Proc.devRef .tc (Pipeline.arrRef spec0 4) ∉ op.writes := by
  intro ops hops op hop
  simp only [List.mem_cons, List.mem_nil_iff, or_false] at hops
  rcases hops with rfl
  simp only [hostOps1, List.mem_cons, List.mem_nil_iff, or_false] at hop
  rcases hop with rfl
  simp only [StableHlo.reshape_writes, Finset.mem_singleton]
  exact StableHlo.devRef_ne_of_ne (by decide)

/-! ## The arguments are kept -/

/-- No line before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- Nor does the line after it: a buffer `b` that is no window's array and is not the last line's result ends as the
    region found it. -/
theorem tail_keeps (dats : (p : Fin 1) → (c : Dev nD) → Dat τ (Elt F) Unit ℕ (UR sig nD τ) ℕ (cfgs p) c) (c : Dev nD)
    (b : Ref sig .tc) (hb : b ≠ main_v5) (ha : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is feature tile 0", as the body computes it from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is feature tile 7". -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from feature tile 7 the body stores nothing into the result tile, and the tile is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At feature tile 7 it stores the whole tile. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2048 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S256x2048 .f32 := Memref.whole cc0_scratch0
/-- The views through which the result tile's and the accumulator's contents are stated. -/
abbrev VO0_4 : View sig .tc .vmem S1x256x2048 .f32 := (Memref.whole cc0_stg4_0 : Memref sig .tc .vmem S1x256x2048 .f32).view
abbrev VS0_0 : View sig .tc .vmem S256x2048 .f32 := scM0_0.view

/-- What the body may use beside its windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.RunA.lean ====
/-
  The body at feature tile 0 (the reset is taken, the copy into the result tile is not): on whole staging buffers — the four
  inputs at their contents, the result tile at contents it hands back untouched, the accumulator at anything — it runs to
  the end, leaving the inputs as they were and the accumulator with the pieces it stored (the zero fill, then the first
  tile's sum over it).
-/
import proofs.«107709_j11020886082286_1_alg».proof.Proof.FrameBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at feature tile 0, with the pieces it leaves in the accumulator. -/
noncomputable def kernelRun0_A (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i)
    (x0 : Vec F S1x256x2048 .bf16) (x1 : Vec F S1x2048x512 .bf16) (x2 : Vec F S1x2048x512 .bf16) (x3 : Vec F S1x512x2048 .bf16) :
    Σ' (L4 : List (View.Piece (Elt F) S1x256x2048 .f32)), { LS0 : List (View.Piece (Elt F) S256x2048 .f32) //
      ∀ (xi4 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frame

end
-- ==== Proof.RunB.lean ====
/-
  The body at feature tiles 1 to 6 (neither the reset nor the copy is taken): the accumulator comes in at what the tile
  before left and goes out with this tile's sum stored over it; the result tile is handed back untouched.
-/
import proofs.«107709_j11020886082286_1_alg».proof.Proof.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle feature tile, with the piece it leaves in the accumulator. -/
noncomputable def kernelRun0_B (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i)
    (x0 : Vec F S1x256x2048 .bf16) (x1 : Vec F S1x2048x512 .bf16) (x2 : Vec F S1x2048x512 .bf16) (x3 : Vec F S1x512x2048 .bf16) (xs0 : Vec F S256x2048 .f32) :
    Σ' (L4 : List (View.Piece (Elt F) S1x256x2048 .f32)), { LS0 : List (View.Piece (Elt F) S256x2048 .f32) //
      ∀ (xi4 : Vec F S1x256x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frame

end
-- ==== Proof.RunC.lean ====
/-
  The body at feature tile 7 (the reset is not taken, the copy is): the accumulator comes in at what tile 6 left, goes out
  with the last tile's sum stored over it, and the result tile — taken at anything — goes out with the accumulator's final
  contents stored into it.
-/
import proofs.«107709_j11020886082286_1_alg».proof.Proof.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the last feature tile, with the pieces it leaves in the result tile and in the accumulator. -/
noncomputable def kernelRun0_C (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i)
    (x0 : Vec F S1x256x2048 .bf16) (x1 : Vec F S1x2048x512 .bf16) (x2 : Vec F S1x2048x512 .bf16) (x3 : Vec F S1x512x2048 .bf16) (xs0 : Vec F S256x2048 .f32) :
    Σ' (L4 : List (View.Piece (Elt F) S1x256x2048 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Frame

end
-- ==== Proof.FrameRun.lean ====
/-
  The expert kernel's run, last part: what the accumulator and the result tile hold after each grid point, the proof data
  of the pipeline, the body's obligation at every point, and the run of the whole program.

  After point `t` the accumulator holds what the body's case at `t` stored: at feature tile 0 the first tile's sum over the
  zero fill, at every later tile that tile's sum added to what the point before left. The result tile holds, after a point
  of feature tile 7, the accumulator's final contents; at the other points the body leaves it alone and it is not written
  back. The gate tile and the up tile read one array: its full share is dealt in two halves, one to each window.
-/
import proofs.«107709_j11020886082286_1_alg».proof.Proof.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At feature tile 0 nothing is stored into the result tile: a placeholder nothing consults. -/
def out0_A_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i) (x0 : Vec F S1x256x2048 .bf16) (x1 : Vec F S1x2048x512 .bf16) (x2 : Vec F S1x2048x512 .bf16) (x3 : Vec F S1x512x2048 .bf16) : Vec F S1x256x2048 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- The pieces stored into the accumulator at feature tile 0 cover it. -/
theorem scover0_A_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i) (x0 : Vec F S1x256x2048 .bf16) (x1 : Vec F S1x2048x512 .bf16) (x2 : Vec F S1x2048x512 .bf16) (x3 : Vec F S1x512x2048 .bf16) (y : S256x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S256x2048.size (by sl_kernel_rfl) y

/-- What feature tile 0 leaves in the accumulator. -/
def sout0_A_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i) (x0 : Vec F S1x256x2048 .bf16) (x1 : Vec F S1x2048x512 .bf16) (x2 : Vec F S1x2048x512 .bf16) (x3 : Vec F S1x512x2048 .bf16) : Vec F S256x2048 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- At a middle feature tile nothing is stored into the result tile either. -/
def out0_B_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i) (x0 : Vec F S1x256x2048 .bf16) (x1 : Vec F S1x2048x512 .bf16) (x2 : Vec F S1x2048x512 .bf16) (x3 : Vec F S1x512x2048 .bf16) (xs0 : Vec F S256x2048 .f32) : Vec F S1x256x2048 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

theorem scover0_B_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i) (x0 : Vec F S1x256x2048 .bf16) (x1 : Vec F S1x2048x512 .bf16) (x2 : Vec F S1x2048x512 .bf16) (x3 : Vec F S1x512x2048 .bf16) (xs0 : Vec F S256x2048 .f32) (y : S256x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S256x2048.size (by sl_kernel_rfl) y

/-- What a middle feature tile leaves in the accumulator, from what the tile before left (`xs0`). -/
def sout0_B_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i) (x0 : Vec F S1x256x2048 .bf16) (x1 : Vec F S1x2048x512 .bf16) (x2 : Vec F S1x2048x512 .bf16) (x3 : Vec F S1x512x2048 .bf16) (xs0 : Vec F S256x2048 .f32) : Vec F S256x2048 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- The piece stored into the result tile at feature tile 7 covers it. -/
theorem cover0_C_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) (y : S1x256x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x256x2048.size (by sl_kernel_rfl) y

/-- What feature tile 7 leaves in the result tile. -/
def out0_C_4 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) : Vec F S1x256x2048 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

theorem scover0_C_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) (y : S256x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S256x2048.size (by sl_kernel_rfl) y

/-- What feature tile 7 leaves in the accumulator. -/
def sout0_C_0 (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) : Vec F S256x2048 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## Point by point -/

/-- What the result tile's staging buffer and the accumulator hold after the body at position `n`: the case the point is
    in, run on the point's blocks, the accumulator read at what position `n - 1` left. -/
def outsAt0 (c : Dev nD) : (n : ℕ) → n < cfg0.N → Vec F S1x256x2048 .f32 × Vec F S256x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a point of feature tile 0. -/
theorem outsAt0_A (c : Dev nD) (t : Fin cfg0.N) (h0 : t.val % 8 = 0) (h1 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a point of a middle feature tile: over what the point before left. -/
theorem outsAt0_B (c : Dev nD) (t : Fin cfg0.N) (h0 : ¬t.val % 8 = 0) (h1 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of feature tile 7: over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the point
    before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the result tile's at
    `outsAt0`; the invariant `PhiS`; nothing owed; the gate/up array's share dealt in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's residue mod 8 says which case it is in; the
    invariant hands the body the accumulator at what the point before left (at anything at the very first point) and takes
    it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The shared array's share dealt among its windows -/

/-- The four distinct buffers behind the five windows, one by one. -/
theorem arrBufs0_eq (c : Dev nD) (Vv : (b : Ref sig .tc) → Buf (Elt F) ((c : Thread nD τ).loc b)) :
    (Pipeline.arrBufs spec0 c Vv : sProp 𝕄)
      = iprop((((c : Thread nD τ).loc main_v1) ↦{fullShare} Vv main_v1) ∗ (((c : Thread nD τ).loc main_v2) ↦{fullShare} Vv main_v2)
          ∗ (((c : Thread nD τ).loc main_v3) ↦{fullShare} Vv main_v3) ∗ (((c : Thread nD τ).loc main_v4) ↦{fullShare} Vv main_v4)) := by
  unfold Pipeline.arrBufs
  rw [show (Finset.univ.image (Pipeline.arrRef spec0) : Finset (Ref sig .tc)) = {main_v1, main_v2, main_v3, main_v4} from by decide]
  rw [BI.bigSep_insert (by decide), BI.bigSep_insert (by decide), BI.bigSep_insert (by decide), BI.bigSep_singleton]
  rfl

/-- The four buffers behind the five windows, each whole at the full share, give every window its array at its share:
    the gate/up array's full share is the two halves, one for the gate window and one for the up window. -/
theorem hsplit (c : Dev nD) :
    (Pipeline.arrBufs spec0 c (V m c) : sProp 𝕄) ⊢ (dats m 0 c).arrays ((dats m 0 c).arrAt · 0) := by
  rw [arrBufs0_eq]
  unfold Dat.arrays
  rw [bigSep_W0]
  rw [(arr_whole0 0).set_eq_univ, (arr_whole0 1).set_eq_univ, (arr_whole0 3).set_eq_univ, (arr_whole0 4).set_eq_univ]
  iintro ⟨H1, H2, H3, H4⟩
  have hsh : ((((c : Thread nD τ).loc main_v2) ↦{fullShare} V m c main_v2) : sProp 𝕄)
      ⊢ iprop((((c : Thread nD τ).loc main_v2) ↦{fullShare.left} V m c main_v2) ∗ (((c : Thread nD τ).loc main_v2) ↦{fullShare.right} V m c main_v2)) :=
    (pointsTo_share (PosShare.mem_left_op_right fullShare)).1
  ihave H2' := hsh $$ H2
  icases H2' with ⟨H2a, H2b⟩
  isplitl [H1]; · iexact H1
  isplitl [H2a]; · iexact H2a
  isplitl [H2b]; · iexact H2b
  isplitl [H3]; · iexact H3
  iexact H4

/-! ## The run -/

set_option backward.isDefEq.respectTransparency.types false in
/-- Every weakly fair execution of the program terminates, every window's array ending at what the proof data compute
    and every other buffer at what the last line leaves. -/
theorem run_main : θ_run defs (onTc (τ := τ) (main (F := F))) (s₀ m ρ) (Pipeline.FramePost cfgs (dats m) 0 (Pipeline.afterTail₀ cfgs (dats m) 0 (V0 m) [hostOps1])) :=
  Cert.SharedLaunchTail.θ_run_frame_shared_around cfgs (dats m) (0 : Fin 1) defs₀ Variants.none cellOf_inj winFacts₀0 block_pos0 arr_whole0 stage_whole0
    m ρ main (hbody := fun c => (body_obligation m c).loose) (howed := fun _ _ => rfl) (V₀ := V0 m) (opss := [hostOps1])
    (wo := 4) (hwo := out_alone) (hfull := fun _ => rfl) (hsub := sfx_sub) (hfresh := sfx_fresh) (hkeep := sfx_keeps)
    (hmain := hmain m Variants.none) (hsplit := hsplit m) (hin := hin m) (hout := hout m)

/-- The program terminates and its three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans ((tail_keeps m (dats m) c main_arg0 (by decide) (by decide)).trans (V_main_arg0 m c)),
     ((h c).2 main_arg1 (Pipeline.mem_restRefs_of main_arg1 (by decide) (by decide))).trans ((tail_keeps m (dats m) c main_arg1 (by decide) (by decide)).trans (V_main_arg1 m c)),
     ((h c).2 main_arg2 (Pipeline.mem_restRefs_of main_arg2 (by decide) (by decide))).trans ((tail_keeps m (dats m) c main_arg2 (by decide) (by decide)).trans (V_main_arg2 m c))⟩) (run_main m ρ)

end Cert.KernelIdeal.Frame

end
-- ==== Proof.Pieces.lean ====
/-
  What each case of the body leaves, read back as values. The accumulator after feature tile 0 is the tile's sum added to
  the zero fill; after any later tile it is the tile's sum added to what came in; the result tile after feature tile 7 is
  the accumulator's final contents re-laid as a `[1, 256, 2048]` block. Each is the payload of the one covering store,
  its loads reading the whole buffers.
-/
import proofs.«107709_j11020886082286_1_alg».proof.Proof.FrameRun
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle feature tile leaves the tile's sum added to what the accumulator held. -/
theorem sout_B (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : ¬cond0_1 i) (x0 : Vec F S1x256x2048 .bf16) (x1 : Vec F S1x2048x512 .bf16) (x2 : Vec F S1x2048x512 .bf16) (x3 : Vec F S1x512x2048 .bf16) (xs0 : Vec F S256x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg6.read_unread, harg8.read_unread,
    View.ld_unit_zero (S := S1x256x2048) hz3, View.ld_unit_zero (S := S1x2048x512) hz3, View.ld_unit_zero (S := S1x512x2048) hz3,
    View.ld_unit_zero (S := S256x2048) hz2]

/-- Feature tile 7 leaves the same in the accumulator, -/
theorem sout_C (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x256x2048) hz3, View.ld_unit_zero (S := S1x2048x512) hz3, View.ld_unit_zero (S := S1x512x2048) hz3,
    View.ld_unit_zero (S := S256x2048) hz2]

/-- and that, re-laid, in the result tile. -/
theorem out_C (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : ¬cond0_0 i) (hc1 : cond0_1 i) (x0 : Vec F S1x256x2048 .bf16) (x1 : Vec F S1x2048x512 .bf16) (x2 : Vec F S1x2048x512 .bf16) (x3 : Vec F S1x512x2048 .bf16) (xs0 : Vec F S256x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3, View.readCov_unit_zero (S := S256x2048) _ hz2]
  simp only [View.readAt_eq_ld, harg3.read_unread, harg4.read_unread, harg5.read_unread, harg6.read_unread, harg8.read_unread,
    View.ld_unit_zero (S := S1x256x2048) hz3, View.ld_unit_zero (S := S1x2048x512) hz3, View.ld_unit_zero (S := S1x512x2048) hz3,
    View.ld_unit_zero (S := S256x2048) hz2]

/-- Feature tile 0 leaves the tile's sum added to the zero fill. -/
theorem sout_A (c : Dev nD) (i : grid0.Coords) (arg3 : Memref sig .tc .vmem S1x256x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x256x2048 .f32) (harg7 : arg7.IsWhole) (arg8 : Memref sig .tc .vmem S256x2048 .f32) (harg8 : arg8.IsWhole) (hc0 : cond0_0 i) (hc1 : ¬cond0_1 i) (x0 : Vec F S1x256x2048 .bf16) (x1 : Vec F S1x2048x512 .bf16) (x2 : Vec F S1x2048x512 .bf16) (x3 : Vec F S1x512x2048 .bf16) :
    sout0_A_0 c i arg3 harg3 arg4 harg4 arg5 harg5 arg6 harg6 arg7 harg7 arg8 harg8 hc0 hc1 x0 x1 x2 x3 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S256x2048) hz2, View.readCov_unit_zero (S := S256x2048) _ hz2]
  simp only [View.readAt_eq_ld, harg3.read_unread, harg4.read_unread, harg5.read_unread, harg6.read_unread, harg8.read_unread,
    View.ld_unit_zero (S := S1x256x2048) hz3, View.ld_unit_zero (S := S1x2048x512) hz3, View.ld_unit_zero (S := S1x512x2048) hz3,
    View.ld_unit_zero (S := S256x2048) hz2]

end Cert.KernelIdeal.Frame

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.TilePayload.lean ====
/-
  The three values the tile body stores, read at an index on the extended reals.

  The body works on one tile: a block of 256 token rows `x` (`[1, 256, 2048]`), a block of 512 gate columns `g` and of 512 up
  columns `u` (`[1, 2048, 512]` each), the matching 512 rows `d` of the down weight (`[1, 512, 2048]`), and the running
  total `acc` (`[256, 2048]`). On the extended reals the format changes are the identity and a matrix product into the zero
  accumulator is the plain sum of products, so

  * the first stored value is the zero array;
  * the second stored value at `(r, h)` is `acc[r, h] + ∑ f, (up_f · (gate_f · logistic gate_f)) · d[f, h]`, where `gate_f` and
    `up_f` are row `r` of the token tile against column `f` of the gate tile and of the up tile (`tproj`);
  * the third stored value is its argument with a leading axis of extent one put in front.

  Each layout change and each product is read at explicit coordinates by a lemma of its own; the three theorems at the end
  assemble them.
-/
import proofs.«107709_j11020886082286_1_alg».proof.Proof.Gen.KernelIdeal.Skeleton
import proofs.«107709_j11020886082286_1_alg».proof.Proof.LibPlainProduct
import Idealize.ShloMosaic.Lib.ValueIdx
import Idealize.ShloMosaic.Lib.Pipeline.Value
import Idealize.ShloMosaic.Lib.ValueLayout

noncomputable section

namespace Cert.KernelIdeal.TileValue

open Cert.KernelIdeal Cert.KernelIdeal.Gen Idealize.ShloMosaic Idealize.ShloMosaic.ValueIdx

/-- Row r of the token tile against column f of a weight tile. -/
def tproj (x : Vec Ideal S1x256x2048 .bf16) (w : Vec Ideal S1x2048x512 .bf16) (r : Fin 256) (f : Fin 512) : EReal :=
  ∑ k : Fin 2048, x (ix3 (0 : Fin 1) r k) * w (ix3 (0 : Fin 1) k f)

/-! ## The two dimension records

Both contract the left operand's second axis with the right operand's first: at the output index `(p, c)` and
contraction coordinate `k` the left operand is read at `(p, k)` and the right one at `(k, c)`. -/

/-- The left operand's row is the output row. -/
theorem dotA_l0 (j : S256x512.Idx) (q : dot_S256x2048_S2048x512_S256x512_1_0_0_1_n_n.contr.Idx) :
    (dot_S256x2048_S2048x512_S256x512_1_0_0_1_n_n.lhsIdx j q (0 : Fin 2)).val = (j (0 : Fin 2)).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl

/-- The left operand's column is the contraction coordinate. -/
theorem dotA_l1 (j : S256x512.Idx) (q : dot_S256x2048_S2048x512_S256x512_1_0_0_1_n_n.contr.Idx) :
    (dot_S256x2048_S2048x512_S256x512_1_0_0_1_n_n.lhsIdx j q (1 : Fin 2)).val = (q ⟨0, by decide⟩).val :=
  dot_S256x2048_S2048x512_S256x512_1_0_0_1_n_n.lhsIdx_val_of_single rfl j q

/-- The right operand's row is the contraction coordinate. -/
theorem dotA_r0 (j : S256x512.Idx) (q : dot_S256x2048_S2048x512_S256x512_1_0_0_1_n_n.contr.Idx) :
    (dot_S256x2048_S2048x512_S256x512_1_0_0_1_n_n.rhsIdx j q (0 : Fin 2)).val = (q ⟨0, by decide⟩).val :=
  dot_S256x2048_S2048x512_S256x512_1_0_0_1_n_n.rhsIdx_val_of_single rfl j q

/-- The right operand's column is the output column. -/
theorem dotA_r1 (j : S256x512.Idx) (q : dot_S256x2048_S2048x512_S256x512_1_0_0_1_n_n.contr.Idx) :
    (dot_S256x2048_S2048x512_S256x512_1_0_0_1_n_n.rhsIdx j q (1 : Fin 2)).val = (j (1 : Fin 2)).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

/-- The left operand's row is the output row. -/
theorem dotB_l0 (j : S256x2048.Idx) (q : dot_S256x512_S512x2048_S256x2048_1_0_0_1_n_n.contr.Idx) :
    (dot_S256x512_S512x2048_S256x2048_1_0_0_1_n_n.lhsIdx j q (0 : Fin 2)).val = (j (0 : Fin 2)).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl

/-- The left operand's column is the contraction coordinate. -/
theorem dotB_l1 (j : S256x2048.Idx) (q : dot_S256x512_S512x2048_S256x2048_1_0_0_1_n_n.contr.Idx) :
    (dot_S256x512_S512x2048_S256x2048_1_0_0_1_n_n.lhsIdx j q (1 : Fin 2)).val = (q ⟨0, by decide⟩).val :=
  dot_S256x512_S512x2048_S256x2048_1_0_0_1_n_n.lhsIdx_val_of_single rfl j q

/-- The right operand's row is the contraction coordinate. -/
theorem dotB_r0 (j : S256x2048.Idx) (q : dot_S256x512_S512x2048_S256x2048_1_0_0_1_n_n.contr.Idx) :
    (dot_S256x512_S512x2048_S256x2048_1_0_0_1_n_n.rhsIdx j q (0 : Fin 2)).val = (q ⟨0, by decide⟩).val :=
  dot_S256x512_S512x2048_S256x2048_1_0_0_1_n_n.rhsIdx_val_of_single rfl j q

/-- The right operand's column is the output column. -/
theorem dotB_r1 (j : S256x2048.Idx) (q : dot_S256x512_S512x2048_S256x2048_1_0_0_1_n_n.contr.Idx) :
    (dot_S256x512_S512x2048_S256x2048_1_0_0_1_n_n.rhsIdx j q (1 : Fin 2)).val = (j (1 : Fin 2)).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-! ## The products into the zero accumulator -/

/-- A `[256, 2048]` by `[2048, 512]` product into zero, at `(r, f)`. -/
theorem matmulA_apply {φ₁ φ₂ : FTy} (l : FVec Ideal S256x2048 φ₁) (w : FVec Ideal S2048x512 φ₂) (r : Fin 256) (f : Fin 512) :
    matmul dot_S256x2048_S2048x512_S256x512_1_0_0_1_n_n none l w (constant (F := Ideal) S256x512 .f32 0x00000000#32) (ix2 r f)
      = ∑ k : Fin 2048, l (ix2 r k) * w (ix2 k f) :=
  Cert.PlainProduct.matmul_zero_entry dot_S256x2048_S2048x512_S256x512_1_0_0_1_n_n rfl rfl dotA_l0 dotA_l1 dotA_r0 dotA_r1 l w r f

/-- A `[256, 512]` by `[512, 2048]` product into zero, at `(r, h)`. -/
theorem matmulB_apply {φ₁ φ₂ : FTy} (l : FVec Ideal S256x512 φ₁) (w : FVec Ideal S512x2048 φ₂) (r : Fin 256) (h : Fin 2048) :
    matmul dot_S256x512_S512x2048_S256x2048_1_0_0_1_n_n none l w (constant (F := Ideal) S256x2048 .f32 0x00000000#32) (ix2 r h)
      = ∑ f : Fin 512, l (ix2 r f) * w (ix2 f h) :=
  Cert.PlainProduct.matmul_zero_entry dot_S256x512_S512x2048_S256x2048_1_0_0_1_n_n rfl rfl dotB_l0 dotB_l1 dotB_r0 dotB_r1 l w r h

/-- The token tile with its unit axis dropped, against a weight tile with its unit axis dropped, is `tproj`. -/
theorem proj_apply (x : Vec Ideal S1x256x2048 .bf16) (w : Vec Ideal S1x2048x512 .bf16) (r : Fin 256) (f : Fin 512) :
    matmul dot_S256x2048_S2048x512_S256x512_1_0_0_1_n_n none
        (shapeCast S256x2048 x shapeCasts_S1x256x2048_S256x2048 : FVec Ideal S256x2048 .bf16)
        (shapeCast S2048x512 w shapeCasts_S1x2048x512_S2048x512 : FVec Ideal S2048x512 .bf16)
        (constant (F := Ideal) S256x512 .f32 0x00000000#32) (ix2 r f)
      = tproj x w r f := by
  rw [matmulA_apply]
  unfold tproj
  refine Finset.sum_congr rfl fun k _ => ?_
  rw [shapeCast_1ab_ab_apply, shapeCast_1ab_ab_apply]

/-- The logistic function of an array is taken entry by entry. -/
theorem logistic_apply {s : Shape} {φ : FTy} (a : FVec Ideal s φ) (i : s.Idx) : logistic a i = Ideal.logistic (a i) := rfl

/-! ## The three stored values -/

/-- The first stored value is the zero array. -/
theorem pay1_apply (r : Fin 256) (h : Fin 2048) : k0_pay1 (F := Ideal) (ix2 r h) = 0 := by
  unfold k0_pay1
  rw [shapeCast_self]
  exact Ideal.ofBits_zero_f32

/-- The third stored value is its argument under a leading axis of extent one. -/
theorem pay3_apply (v : Vec Ideal S256x2048 .f32) (r : Fin 256) (h : Fin 2048) :
    k0_pay3 (F := Ideal) v (ix3 (0 : Fin 1) r h) = v (ix2 r h) := by
  unfold k0_pay3
  exact shapeCast_ab_1ab_apply v shapeCasts_S256x2048_S1x256x2048 0 r h

/-- The second stored value: the running total plus this tile's share of the result. -/
theorem pay2_apply (x : Vec Ideal S1x256x2048 .bf16) (g u : Vec Ideal S1x2048x512 .bf16) (d : Vec Ideal S1x512x2048 .bf16)
    (acc : Vec Ideal S256x2048 .f32) (r : Fin 256) (h : Fin 2048) :
    k0_pay2 (F := Ideal) x g u d acc (ix2 r h)
      = acc (ix2 r h) + ∑ f : Fin 512, (tproj x u r f * (tproj x g r f * Ideal.logistic (tproj x g r f))) * d (ix3 (0 : Fin 1) f h) := by
  unfold k0_pay2
  rw [shapeCast_self, addf_apply, matmulB_apply]
  refine congrArg (acc (ix2 r h) + ·) (Finset.sum_congr rfl fun f _ => ?_)
  rw [truncf_apply, mulf_apply, mulf_apply, logistic_apply, proj_apply, proj_apply, shapeCast_1ab_ab_apply]

end Cert.KernelIdeal.TileValue

end
-- ==== Proof.PointCoords.lean ====
/-
  A grid point's coordinates. The grid is `8 × 4 × 8` in row-major order, so point `t` is expert `t / 32`, token tile
  `(t / 8) % 4`, feature tile `t % 8`; row `r` of its token tile is token `((t / 8) % 4) · 256 + r` of the expert.
-/
import proofs.«107709_j11020886082286_1_alg».proof.Proof.Gen.KernelIdeal.Launch

noncomputable section

namespace Cert.KernelIdeal.Point

open Cert.KernelIdeal Cert.KernelIdeal.Gen

theorem N_eq : cfg0.N = 256 := N_0

/-- The expert of point `t`. -/
def eOf (t : Fin cfg0.N) : Fin 8 := ⟨t.val / 32, by have := lt_of_lt_of_eq t.isLt N_eq; omega⟩

/-- The expert's token held by row `r` of point `t`'s token tile. -/
def rowOf (t : Fin cfg0.N) (r : Fin 256) : Fin 1024 :=
  ⟨((t.val / 8) % 4) * 256 + r.val, by have := Nat.mod_lt (t.val / 8) (by decide : 0 < 4); have := r.isLt; omega⟩

/-- The feature tile of point `t`. -/
def fOf (t : Fin cfg0.N) : ℕ := t.val % 8

end Cert.KernelIdeal.Point

end
-- ==== Proof.Spec.lean ====
/-
  The result the expert layer computes, as one function of its three argument arrays.

  Tokens come sorted by expert: row `e·1024 + t` of the hidden states is token `t` of expert `e`. For expert `e` and token
  `t` the projection onto column `c` of the expert's gate/up weight is `∑ k, X[e·1024+t, k] · W[e, k, c]`; the first 4096
  columns are the gate, the last 4096 the up projection. The intermediate activation at feature `f` is
  `up_f · (gate_f · logistic gate_f)`, and the result at hidden unit `h` is `∑ f, inter_f · D[e, f, h]`.

  The sum over the 4096 features may be taken tile by tile, eight tiles of 512 features, each added to a running total that
  starts at zero: `accN` is that running total. After the eighth tile it is the whole sum, because addition of extended
  reals is commutative and associative (no finiteness is needed); that law is proved in the module that imports this one.
-/
import Idealize.ShloMosaic.Lib.ValueIdx
import Idealize.ShloMosaic.PureOps.Ideal.Laws

noncomputable section

namespace Cert.ExpertSpec

open Idealize.ShloMosaic Idealize.ShloMosaic.ValueIdx

/-- The hidden states `[8192, 2048]`, the gate/up weights `[8, 2048, 8192]`, the down weights `[8, 4096, 2048]`. -/
abbrev AX : Shape := ⟨2, ![8192, 2048]⟩
abbrev AW : Shape := ⟨3, ![8, 2048, 8192]⟩
abbrev AD : Shape := ⟨3, ![8, 4096, 2048]⟩

variable (X : AX.Idx → EReal) (W : AW.Idx → EReal) (D : AD.Idx → EReal)

/-- Row of the hidden states holding token `t` of expert `e`. -/
def tokRow (e : Fin 8) (t : Fin 1024) : Fin 8192 := ⟨e.val * 1024 + t.val, by omega⟩

/-- Token `t` of expert `e` projected onto column `c` of that expert's gate/up weight. -/
def proj (e : Fin 8) (t : Fin 1024) (c : Fin 8192) : EReal :=
  ∑ k : Fin 2048, X (ix2 (tokRow e t) k) * W (ix3 e k c)

/-- Feature `f`'s gate column and up column. -/
def gateCol (f : Fin 4096) : Fin 8192 := ⟨f.val, by omega⟩
def upCol (f : Fin 4096) : Fin 8192 := ⟨4096 + f.val, by omega⟩

/-- The intermediate activation: `up · (gate · logistic gate)`. -/
def inter (e : Fin 8) (t : Fin 1024) (f : Fin 4096) : EReal :=
  proj X W e t (upCol f) * (proj X W e t (gateCol f) * Ideal.logistic (proj X W e t (gateCol f)))

/-- The result for expert `e`, token `t`, hidden unit `h`. -/
def out (e : Fin 8) (t : Fin 1024) (h : Fin 2048) : EReal :=
  ∑ f : Fin 4096, inter X W e t f * D (ix3 e f h)

/-- The whole result `[8192, 2048]`: row `i₀` is token `i₀ % 1024` of expert `i₀ / 1024`. -/
def G : AX.Idx → EReal := fun i =>
  out X W D ⟨(i 0).val / 1024, by have h : (i 0).val < 8192 := (i 0).isLt; show (i 0).val / 1024 < 8; omega⟩
    ⟨(i 0).val % 1024, Nat.mod_lt _ (by norm_num)⟩ (i 1)

/-- Feature `f` of tile `j` (tiles of 512 features; `j` is reduced mod 8 so that the definition is total). -/
def tileCol (j : ℕ) (f : Fin 512) : Fin 4096 := ⟨(j % 8) * 512 + f.val, by have := Nat.mod_lt j (show 0 < 8 by norm_num); omega⟩

/-- Tile `j`'s share of the result. -/
def tile (e : Fin 8) (t : Fin 1024) (h : Fin 2048) (j : ℕ) : EReal :=
  ∑ f : Fin 512, inter X W e t (tileCol j f) * D (ix3 e (tileCol j f) h)

/-- The running total after tile `n`, started from zero. -/
def accN (e : Fin 8) (t : Fin 1024) (h : Fin 2048) : ℕ → EReal
  | 0 => 0 + tile X W D e t h 0
  | n + 1 => accN e t h n + tile X W D e t h (n + 1)

end Cert.ExpertSpec

end
-- ==== Proof.BlockReads.lean ====
/-
  The windows' blocks read at coordinates, and one tile's share of the result.

  When the region is entered the three arrays the windows read are the program's arguments: the token array
  `[8, 1024, 2048]` is the hidden states `[8192, 2048]` re-indexed row-major (row `e · 1024 + t` is token `t` of expert `e`), and
  the two weight arrays are the arguments themselves; the change of float format is the identity on the extended reals.

  At grid point `t` (expert `t / 32`, token tile `(t / 8) % 4`, feature tile `t % 8`) the token tile's entry `(0, r, k)` is
  the hidden state of token `((t / 8) % 4) · 256 + r` of the expert at `k`; the gate tile's entry `(0, k, f)` is the
  gate/up weight at column `(t % 8) · 512 + f`, the up tile's at column `4096 + (t % 8) · 512 + f`; the down tile's entry
  `(0, f, h)` is the down weight at row `(t % 8) · 512 + f`. An entry of a block is always read at
  block index × block extent + the coordinate inside the block, axis by axis.

  Hence a row of the token tile against a column of the gate (up) tile is the specification's projection onto the
  gate (up) column of feature `(t % 8) · 512 + f`, and the sum over the tile's 512 features is the specification's
  `tile` at feature tile `t % 8`.
-/
import proofs.«107709_j11020886082286_1_alg».proof.Proof.FrameBase
import proofs.«107709_j11020886082286_1_alg».proof.Proof.PointCoords
import proofs.«107709_j11020886082286_1_alg».proof.Proof.Spec
import proofs.«107709_j11020886082286_1_alg».proof.Proof.TilePayload
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.KernelIdeal.Frame Cert.KernelIdeal.Point Cert.KernelIdeal.TileValue Cert.ExpertSpec Idealize.ShloMosaic Idealize.ShloMosaic.ValueIdx Idealize.ShloMosaic.TcCoe

variable (m : (ℓ : Loc nD τ sig) → Buf (Elt Ideal) ℓ) (c : Dev nD)

/-! ## The arrays the region finds -/

/-- The gate/up weight array the region finds is the second argument. -/
theorem V_v2 : (V m c main_v2 : S8x2048x8192.Idx → EReal) = m ((c : Thread nD τ).loc main_arg1) := by
  show StableHlo.after hostOps0 (fun b => m (c, b)) (Proc.devRef .tc main_v2) = _
  after_results
  rfl

/-- The down weight array the region finds is the third argument. -/
theorem V_v3 : (V m c main_v3 : S8x4096x2048.Idx → EReal) = m ((c : Thread nD τ).loc main_arg2) := by
  show StableHlo.after hostOps0 (fun b => m (c, b)) (Proc.devRef .tc main_v3) = _
  after_results
  rfl

/-- The token array the region finds is the first argument re-indexed to `[8, 1024, 2048]`. -/
theorem V_v1 : (V m c main_v1 : S8x1024x2048.Idx → EReal)
    = shapeCast S8x1024x2048 (m ((c : Thread nD τ).loc main_arg0)) shapeCasts_S8192x2048_S8x1024x2048 := by
  show StableHlo.after hostOps0 (fun b => m (c, b)) (Proc.devRef .tc main_v1) = _
  after_results
  rfl

/-- Token `tk` of expert `e` is row `e · 1024 + tk` of the hidden states. -/
theorem V_v1_apply (e : Fin 8) (tk : Fin 1024) (k : Fin 2048) :
    (V m c main_v1 : S8x1024x2048.Idx → EReal) (ix3 e tk k) = m ((c : Thread nD τ).loc main_arg0) (ix2 (tokRow e tk) k) := by
  rw [V_v1]
  exact shapeCast_apply _ shapeCasts_S8192x2048_S8x1024x2048 (ix3 e tk k) (ix2 (tokRow e tk) k) (by
    rw [Shape.rowMajor_val_two, Shape.rowMajor_val_three]
    show (e.val * 1024 + tk.val) * 2048 + k.val = (e.val * 1024 + tk.val) * 2048 + k.val
    rfl)

/-! ## The windows' block indices -/

/-- The token tile's block index at point `t`: (expert, token tile, 0). -/
theorem idx0 : ∀ t : Fin cfg0.N, win0_0.index t 0 = t.val / 32 ∧ win0_0.index t 1 = (t.val / 8) % 4 ∧ win0_0.index t 2 = 0 :=
  (by decide +kernel : ∀ t : Fin grid0.N, win0_0.index t 0 = t.val / 32 ∧ win0_0.index t 1 = (t.val / 8) % 4 ∧ win0_0.index t 2 = 0)
/-- The gate tile's block index: (expert, 0, feature tile). -/
theorem idx1 : ∀ t : Fin cfg0.N, win0_1.index t 0 = t.val / 32 ∧ win0_1.index t 1 = 0 ∧ win0_1.index t 2 = t.val % 8 :=
  (by decide +kernel : ∀ t : Fin grid0.N, win0_1.index t 0 = t.val / 32 ∧ win0_1.index t 1 = 0 ∧ win0_1.index t 2 = t.val % 8)
/-- The up tile's block index: (expert, 0, 8 + feature tile). -/
theorem idx2 : ∀ t : Fin cfg0.N, win0_2.index t 0 = t.val / 32 ∧ win0_2.index t 1 = 0 ∧ win0_2.index t 2 = 8 + t.val % 8 :=
  (by decide +kernel : ∀ t : Fin grid0.N, win0_2.index t 0 = t.val / 32 ∧ win0_2.index t 1 = 0 ∧ win0_2.index t 2 = 8 + t.val % 8)
/-- The down tile's block index: (expert, feature tile, 0). -/
theorem idx3 : ∀ t : Fin cfg0.N, win0_3.index t 0 = t.val / 32 ∧ win0_3.index t 1 = t.val % 8 ∧ win0_3.index t 2 = 0 :=
  (by decide +kernel : ∀ t : Fin grid0.N, win0_3.index t 0 = t.val / 32 ∧ win0_3.index t 1 = t.val % 8 ∧ win0_3.index t 2 = 0)

/-! ## The blocks at coordinates -/

/-- The token tile at `(0, r, k)`. -/
theorem iblk0_apply (t : Fin cfg0.N) (r : Fin 256) (k : Fin 2048) :
    (iblk m c 0 t : Vec Ideal S1x256x2048 .bf16) (ix3 (0 : Fin 1) r k)
      = m ((c : Thread nD τ).loc main_arg0) (ix2 (tokRow (eOf t) (rowOf t r)) k) := by
  unfold iblk
  rw [View.read_apply]
  show (V m c main_v1 : S8x1024x2048.Idx → EReal) _ = _
  refine (congrArg (V m c main_v1 : S8x1024x2048.Idx → EReal) ?_).trans (V_v1_apply m c (eOf t) (rowOf t r) k)
  funext a
  apply Fin.ext
  match a with
  | ⟨0, _⟩ => show win0_0.index t 0 * 1 + 1 * 0 = t.val / 32; rw [(idx0 t).1]; omega
  | ⟨1, _⟩ => show win0_0.index t 1 * 256 + 1 * r.val = ((t.val / 8) % 4) * 256 + r.val; rw [(idx0 t).2.1]; omega
  | ⟨2, _⟩ => show win0_0.index t 2 * 2048 + 1 * k.val = k.val; rw [(idx0 t).2.2]; omega

/-- Column of the gate/up weight read by column `f` of the gate tile at point `t`. -/
def gcol (t : Fin cfg0.N) (f : Fin 512) : Fin 8192 := gateCol (tileCol (t.val % 8) f)
/-- Column of the gate/up weight read by column `f` of the up tile at point `t`. -/
def ucol (t : Fin cfg0.N) (f : Fin 512) : Fin 8192 := upCol (tileCol (t.val % 8) f)

/-- The gate column's value. -/
theorem gcol_val (t : Fin cfg0.N) (f : Fin 512) : (gcol t f).val = (t.val % 8) * 512 + f.val := by
  show (t.val % 8 % 8) * 512 + f.val = _
  rw [Nat.mod_mod]
/-- The up column's value. -/
theorem ucol_val (t : Fin cfg0.N) (f : Fin 512) : (ucol t f).val = 4096 + ((t.val % 8) * 512 + f.val) := by
  show 4096 + ((t.val % 8 % 8) * 512 + f.val) = _
  rw [Nat.mod_mod]
/-- Feature `f` of tile `t % 8`. -/
theorem tileCol_val (t : Fin cfg0.N) (f : Fin 512) : (tileCol (t.val % 8) f).val = (t.val % 8) * 512 + f.val := by
  show (t.val % 8 % 8) * 512 + f.val = _
  rw [Nat.mod_mod]

/-- The gate tile at `(0, k, f)`. -/
theorem iblk1_apply (t : Fin cfg0.N) (k : Fin 2048) (f : Fin 512) :
    (iblk m c 1 t : Vec Ideal S1x2048x512 .bf16) (ix3 (0 : Fin 1) k f)
      = m ((c : Thread nD τ).loc main_arg1) (ix3 (eOf t) k (gcol t f)) := by
  unfold iblk
  rw [View.read_apply]
  show (V m c main_v2 : S8x2048x8192.Idx → EReal) _ = _
  rw [V_v2]
  refine congrArg (m ((c : Thread nD τ).loc main_arg1)) ?_
  funext a
  apply Fin.ext
  match a with
  | ⟨0, _⟩ => show win0_1.index t 0 * 1 + 1 * 0 = t.val / 32; rw [(idx1 t).1]; omega
  | ⟨1, _⟩ => show win0_1.index t 1 * 2048 + 1 * k.val = k.val; rw [(idx1 t).2.1]; omega
  | ⟨2, _⟩ => show win0_1.index t 2 * 512 + 1 * f.val = (gcol t f).val; rw [(idx1 t).2.2, gcol_val]; omega

/-- The up tile at `(0, k, f)`. -/
theorem iblk2_apply (t : Fin cfg0.N) (k : Fin 2048) (f : Fin 512) :
    (iblk m c 2 t : Vec Ideal S1x2048x512 .bf16) (ix3 (0 : Fin 1) k f)
      = m ((c : Thread nD τ).loc main_arg1) (ix3 (eOf t) k (ucol t f)) := by
  unfold iblk
  rw [View.read_apply]
  show (V m c main_v2 : S8x2048x8192.Idx → EReal) _ = _
  rw [V_v2]
  refine congrArg (m ((c : Thread nD τ).loc main_arg1)) ?_
  funext a
  apply Fin.ext
  match a with
  | ⟨0, _⟩ => show win0_2.index t 0 * 1 + 1 * 0 = t.val / 32; rw [(idx2 t).1]; omega
  | ⟨1, _⟩ => show win0_2.index t 1 * 2048 + 1 * k.val = k.val; rw [(idx2 t).2.1]; omega
  | ⟨2, _⟩ => show win0_2.index t 2 * 512 + 1 * f.val = (ucol t f).val; rw [(idx2 t).2.2, ucol_val]; omega

/-- The down tile at `(0, f, h)`. -/
theorem iblk3_apply (t : Fin cfg0.N) (f : Fin 512) (h : Fin 2048) :
    (iblk m c 3 t : Vec Ideal S1x512x2048 .bf16) (ix3 (0 : Fin 1) f h)
      = m ((c : Thread nD τ).loc main_arg2) (ix3 (eOf t) (tileCol (t.val % 8) f) h) := by
  unfold iblk
  rw [View.read_apply]
  show (V m c main_v3 : S8x4096x2048.Idx → EReal) _ = _
  rw [V_v3]
  refine congrArg (m ((c : Thread nD τ).loc main_arg2)) ?_
  funext a
  apply Fin.ext
  match a with
  | ⟨0, _⟩ => show win0_3.index t 0 * 1 + 1 * 0 = t.val / 32; rw [(idx3 t).1]; omega
  | ⟨1, _⟩ => show win0_3.index t 1 * 512 + 1 * f.val = (tileCol (t.val % 8) f).val; rw [(idx3 t).2.1, tileCol_val]; omega
  | ⟨2, _⟩ => show win0_3.index t 2 * 2048 + 1 * h.val = h.val; rw [(idx3 t).2.2]; omega

/-! ## The tile's projections are the specification's -/

/-- Row `r` of the token tile against column `f` of the gate tile is the projection onto the feature's gate column. -/
theorem tproj_gate (t : Fin cfg0.N) (r : Fin 256) (f : Fin 512) :
    tproj (iblk m c 0 t) (iblk m c 1 t) r f
      = proj (m ((c : Thread nD τ).loc main_arg0)) (m ((c : Thread nD τ).loc main_arg1)) (eOf t) (rowOf t r) (gateCol (tileCol (t.val % 8) f)) := by
  unfold tproj proj
  refine Finset.sum_congr rfl fun k _ => ?_
  rw [iblk0_apply, iblk1_apply]
  rfl

/-- The same against the up tile: the projection onto the feature's up column. -/
theorem tproj_up (t : Fin cfg0.N) (r : Fin 256) (f : Fin 512) :
    tproj (iblk m c 0 t) (iblk m c 2 t) r f
      = proj (m ((c : Thread nD τ).loc main_arg0)) (m ((c : Thread nD τ).loc main_arg1)) (eOf t) (rowOf t r) (upCol (tileCol (t.val % 8) f)) := by
  unfold tproj proj
  refine Finset.sum_congr rfl fun k _ => ?_
  rw [iblk0_apply, iblk2_apply]
  rfl

/-! ## The tile's share -/

/-- The sum over the tile's 512 features is the specification's share of feature tile `t % 8`. -/
theorem tile_eq (t : Fin cfg0.N) (r : Fin 256) (h : Fin 2048) :
    (∑ f : Fin 512, (tproj (iblk m c 0 t) (iblk m c 2 t) r f * (tproj (iblk m c 0 t) (iblk m c 1 t) r f * Ideal.logistic (tproj (iblk m c 0 t) (iblk m c 1 t) r f))) * (iblk m c 3 t) (ix3 (0 : Fin 1) f h))
      = tile (m ((c : Thread nD τ).loc main_arg0)) (m ((c : Thread nD τ).loc main_arg1)) (m ((c : Thread nD τ).loc main_arg2)) (eOf t) (rowOf t r) h (t.val % 8) := by
  unfold tile inter
  refine Finset.sum_congr rfl fun f _ => ?_
  rw [tproj_gate, tproj_up, iblk3_apply]

end Cert.KernelIdeal.Blocks

end
-- ==== Proof.ResultArray.lean ====
/-
  The result array after the region, and the program's result buffer after the last line.

  The result window's block at grid point `t` is the block `[1, 256, 2048]` of the array `[8, 1024, 2048]` at block index
  `(t / 32, (t / 8) % 4, 0)`: entry `(0, r, h)` of the block is entry `(t / 32, ((t / 8) % 4) · 256 + r, h)` of the array. The
  block is written back exactly at the points `t` with `t % 8 = 7`. Entry `(e, s, h)` of the array lies in the block of the
  point `e · 32 + (s / 256) · 8 + 7`, which is such a point; so these blocks cover the array, and if each of them holds the
  corresponding block of one function `R` of the array's indices, the array ends at `R`.

  The last line re-lays the array `[8, 1024, 2048]` as `[8192, 2048]` in row-major order: entry `(i₀, i₁)` of the result is
  entry `(i₀ / 1024, i₀ % 1024, i₁)` of the array, both being at row-major position `i₀ · 2048 + i₁`.
-/
import proofs.«107709_j11020886082286_1_alg».proof.Proof.FrameRun
import proofs.«107709_j11020886082286_1_alg».proof.Proof.PointCoords
import Idealize.ShloMosaic.Lib.Pipeline.Value
import Idealize.ShloMosaic.Lib.ValueIdx
import Idealize.ShloMosaic.Lib.StableHlo.Run

set_option maxRecDepth 16384

noncomputable section

namespace Cert.KernelIdeal.Result

open Cert.KernelIdeal Cert.KernelIdeal.Gen Cert.KernelIdeal.Frame Cert.KernelIdeal.Point
open Idealize.ShloMosaic Idealize.ShloMosaic.ValueIdx Idealize.ShloMosaic.TcCoe
open Idealize.ShloMosaic.Pipeline (Dat)

variable {F : FTy → Type} [FloatOps F]
variable (m : (ℓ : Loc nD τ sig) → Buf (Elt F) ℓ) (c : Dev nD)

/-- The result window's block index at point `t`, in closed form: expert `t / 32`, token tile `(t / 8) % 4`, column block 0. -/
theorem index_facts : ∀ t : Fin cfg0.N, win0_4.index t (0 : Fin 3) = t.val / 32
    ∧ win0_4.index t (1 : Fin 3) = (t.val / 8) % 4 ∧ win0_4.index t (2 : Fin 3) = 0 :=
  (by decide +kernel : ∀ t : Fin grid0.N, win0_4.index t (0 : Fin 3) = t.val / 32
    ∧ win0_4.index t (1 : Fin 3) = (t.val / 8) % 4 ∧ win0_4.index t (2 : Fin 3) = 0)

/-- An index of a block `[1, 256, 2048]` has first coordinate 0. -/
theorem blockIdx_eq (y : S1x256x2048.Idx) : y = ix3 (0 : Fin 1) (y 1) (y 2) :=
  funext fun a => by
    match a with
    | ⟨0, _⟩ => exact Fin.ext (by have h : (y 0).val < 1 := (y 0).isLt; show (y 0).val = 0; omega)
    | ⟨1, _⟩ => rfl
    | ⟨2, _⟩ => rfl

/-- What a write-back point writes is `R` read through the point's block. -/
theorem flushed_eq (R : S8x1024x2048.Idx → Elt F .f32)
    (hR : ∀ t : Fin cfg0.N, t.val % 8 = 7 → ∀ (r : Fin 256) (h : Fin 2048),
      (outsAt0 m c t.val t.isLt).1 (ix3 (0 : Fin 1) r h) = R (ix3 (eOf t) (rowOf t r) h))
    (t : Fin cfg0.N) (hf : (cfg0.win 4).flush t = true) :
    (dats m 0 c).flushed 4 t = ((cfg0.win 4).blk t).view.read (Elt F) R := by
  show (cfg0.win 4).cut (grid0.coords t) ((dats m 0 c).after 4 t) = _
  rw [after0_4]
  have ht : t.val % 8 = 7 := (flush0_4 t).mp hf
  obtain ⟨e0, e1, e2⟩ := index_facts t
  funext y
  rw [View.read_apply]
  have hy : (y : S1x256x2048.Idx) = ix3 (0 : Fin 1) (y 1) (y 2) := blockIdx_eq y
  refine (congrArg (outsAt0 m c t.val t.isLt).1 hy).trans ((hR t ht (y 1) (y 2)).trans (congrArg R ?_).symm)
  funext a
  apply Fin.ext
  have h0 : (y 0).val < 1 := (y 0).isLt
  match a with
  | ⟨0, _⟩ => show win0_4.index t (0 : Fin 3) * 1 + 1 * (y 0).val = t.val / 32; rw [e0]; omega
  | ⟨1, _⟩ => show win0_4.index t (1 : Fin 3) * 256 + 1 * (y 1).val = ((t.val / 8) % 4) * 256 + (y 1).val; rw [e1]; omega
  | ⟨2, _⟩ => show win0_4.index t (2 : Fin 3) * 2048 + 1 * (y 2).val = (y 2).val; rw [e2]; omega

/-- The write-back point whose block holds the array's entries `(e, s, ·)`: expert `e`, token tile `s / 256`, feature tile 7. -/
def coverPt (e : Fin 8) (s : Fin 1024) : Fin cfg0.N :=
  ⟨e.val * 32 + (s.val / 256) * 8 + 7, by have hN : cfg0.N = 256 := N_eq; have := e.isLt; have := s.isLt; omega⟩

/-- If at every write-back point the result tile holds `R`'s block there, the result array ends at `R`. -/
theorem final_of (R : S8x1024x2048.Idx → Elt F .f32)
    (hR : ∀ t : Fin cfg0.N, t.val % 8 = 7 → ∀ (r : Fin 256) (h : Fin 2048),
      (outsAt0 m c t.val t.isLt).1 (ix3 (0 : Fin 1) r h) = R (ix3 (eOf t) (rowOf t r) h)) :
    (dats m 0 c).arrAt 4 cfg0.N = R :=
  (dats m 0 c).arrAt_eq_of_cover 4 R (flushed_eq m c R hR) fun i => by
    have h0 : (i 0 : Nat) < 8 := (i 0).isLt
    have h1 : (i 1 : Nat) < 1024 := (i 1).isLt
    have h2 : (i 2 : Nat) < 2048 := (i 2).isLt
    obtain ⟨t, hv⟩ : ∃ t : Fin cfg0.N, t.val = (i 0 : Nat) * 32 + ((i 1 : Nat) / 256) * 8 + 7 :=
      ⟨coverPt ⟨(i 0 : Nat), h0⟩ ⟨(i 1 : Nat), h1⟩, rfl⟩
    obtain ⟨e0, e1, e2⟩ := index_facts t
    refine ⟨t, (flush0_4 t).mpr (by rw [hv]; omega), ?_⟩
    show i ∈ ((View.whole main_v4).slice (win0_4.rect t)).set
    rw [View.set_slice_whole, Rect.mem_set_unit]
    intro a
    match a with
    | ⟨0, _⟩ =>
      show win0_4.index t (0 : Fin 3) * 1 ≤ (i 0 : Nat) ∧ (i 0 : Nat) < win0_4.index t (0 : Fin 3) * 1 + 1
      rw [e0, hv]; omega
    | ⟨1, _⟩ =>
      show win0_4.index t (1 : Fin 3) * 256 ≤ (i 1 : Nat) ∧ (i 1 : Nat) < win0_4.index t (1 : Fin 3) * 256 + 256
      rw [e1, hv]; omega
    | ⟨2, _⟩ =>
      show win0_4.index t (2 : Fin 3) * 2048 ≤ (i 2 : Nat) ∧ (i 2 : Nat) < win0_4.index t (2 : Fin 3) * 2048 + 2048
      rw [e2]; omega

/-- The program's result buffer ends at the result array re-laid as `[8192, 2048]`: entry `(i₀, i₁)` is the array's entry
    `(i₀ / 1024, i₀ % 1024, i₁)`. The last line is a re-laying in row-major order of the result window's array, which no other
    window shares, so it reads what the region left there; and the two entries have the same row-major position,
    `(i₀ / 1024 · 1024 + i₀ % 1024) · 2048 + i₁ = i₀ · 2048 + i₁`. -/
theorem tail_apply (i0 : Fin 8192) (i1 : Fin 2048) :
    Pipeline.afterTail₀ cfgs (dats m) 0 (V0 m) [hostOps1] c main_v5 (ix2 i0 i1)
      = (dats m 0 c).arrAt 4 cfg0.N (ix3 (⟨i0.val / 1024, by have := i0.isLt; omega⟩ : Fin 8)
          (⟨i0.val % 1024, Nat.mod_lt _ (by decide)⟩ : Fin 1024) i1) := by
  unfold Pipeline.afterTail₀
  simp only [List.flatten_cons, List.flatten_nil, List.append_nil]
  show StableHlo.after hostOps1 _ (Proc.devRef .tc main_v5) _ = _
  after_results
  have hW : Pipeline.withArrays (cfgs 0).spec c (V0 m c) (fun w => (dats m 0 c).arrAt w (cfgs 0).N) (Proc.devRef .tc main_v4)
      = (dats m 0 c).arrAt 4 cfg0.N :=
    Cert.SharedLaunchTail.withArrays_one spec0 4 out_alone c (V0 m c) _
  rw [hW]
  show shapeCast S8192x2048 ((dats m 0 c).arrAt 4 cfg0.N : S8x1024x2048.Idx → Elt F .f32) shapeCasts_S8x1024x2048_S8192x2048 (ix2 i0 i1) = _
  refine shapeCast_apply (s := S8x1024x2048) (t := S8192x2048) _ shapeCasts_S8x1024x2048_S8192x2048 (ix2 i0 i1) _ ?_
  rw [Shape.rowMajor_val_three, Shape.rowMajor_val_two]
  have h0 := i0.isLt
  show (i0.val / 1024 * 1024 + i0.val % 1024) * 2048 + i1.val = i0.val * 2048 + i1.val
  omega

end Cert.KernelIdeal.Result

end
-- ==== Proof.SpecLaw.lean ====
/-
  The running total over the eight tiles is the whole sum.

  A sum over the 4096 features can be taken as a sum over eight tiles of 512 features each: the pair (tile `j`, position `f`)
  names feature `j·512 + f`, and this naming is a bijection between `Fin 8 × Fin 512` and `Fin 4096`. Addition of extended
  reals is commutative and associative, so reindexing a finite sum along a bijection and splitting a sum over a product into
  an iterated sum need no finiteness of the terms. The running total `accN`, unfolded eight times, is
  `0 + tile 0 + tile 1 + … + tile 7`, which is the eight-term outer sum.
-/
import proofs.«107709_j11020886082286_1_alg».proof.Proof.Spec
import Mathlib.Algebra.BigOperators.Fin
import Mathlib.Logic.Equiv.Fin.Basic

noncomputable section

namespace Cert.ExpertSpec

open Idealize.ShloMosaic Idealize.ShloMosaic.ValueIdx

/-- Feature `j·512 + f` is the image of the pair `(j, f)` under the standard bijection `Fin 8 × Fin 512 ≃ Fin 4096`. -/
theorem tileCol_eq_equiv (j : Fin 8) (f : Fin 512) :
    tileCol j.val f = (finProdFinEquiv (j, f) : Fin (8 * 512)) := by
  apply Fin.ext
  have hj : j.val % 8 = j.val := Nat.mod_eq_of_lt j.isLt
  simp only [tileCol, finProdFinEquiv, Equiv.coe_fn_mk, hj]
  omega

/-- Regrouping: a sum over 4096 features is the sum over eight tiles of the sums over each tile's 512 features. -/
theorem sum_tiles (a : Fin 4096 → EReal) :
    ∑ f : Fin 4096, a f = ∑ j : Fin 8, ∑ f : Fin 512, a (tileCol j.val f) := by
  have h := Equiv.sum_comp (finProdFinEquiv : Fin 8 × Fin 512 ≃ Fin (8 * 512)) (fun x : Fin (8 * 512) => a x)
  have h' : ∑ f : Fin 4096, a f = ∑ p : Fin 8 × Fin 512, a (finProdFinEquiv p : Fin (8 * 512)) := h.symm
  rw [h', Fintype.sum_prod_type]
  refine Finset.sum_congr rfl fun j _ => Finset.sum_congr rfl fun f _ => ?_
  rw [tileCol_eq_equiv]

/-- The running total written out: zero plus the eight tiles, added left to right. -/
theorem accN_seven (X : AX.Idx → EReal) (W : AW.Idx → EReal) (D : AD.Idx → EReal)
    (e : Fin 8) (t : Fin 1024) (h : Fin 2048) :
    accN X W D e t h 7 =
      0 + tile X W D e t h 0 + tile X W D e t h 1 + tile X W D e t h 2 + tile X W D e t h 3
        + tile X W D e t h 4 + tile X W D e t h 5 + tile X W D e t h 6 + tile X W D e t h 7 := rfl

/-- After the eighth tile the running total is the sum over all 4096 features. -/
theorem accN_last (X : AX.Idx → EReal) (W : AW.Idx → EReal) (D : AD.Idx → EReal)
    (e : Fin 8) (t : Fin 1024) (h : Fin 2048) :
    accN X W D e t h 7 = out X W D e t h := by
  have hs := sum_tiles (fun f => inter X W e t f * D (ix3 e f h))
  rw [accN_seven, zero_add]
  unfold out
  rw [hs, Fin.sum_univ_eight]
  rfl

end Cert.ExpertSpec

end
-- ==== Proof.KernelResult.lean ====
/-
  The expert kernel's result at the ideal instance.

  By induction on the grid point, the accumulator after point `n` holds the running total over the feature tiles up to
  `n % 8` for the point's expert and token rows: feature tile 0 adds its tile to the zero fill, every later tile adds its
  own to what the point before left — the expert and the token rows do not change inside a run of eight points. At a point
  of feature tile 7 the result tile therefore holds the whole sum over the 4096 features, these points write back blocks
  that tile the result array, and the last line re-lays that array as `[8192, 2048]`: the specification `G`.
-/
import proofs.«107709_j11020886082286_1_alg».proof.Proof.Pieces
import proofs.«107709_j11020886082286_1_alg».proof.Proof.TilePayload
import proofs.«107709_j11020886082286_1_alg».proof.Proof.BlockReads
import proofs.«107709_j11020886082286_1_alg».proof.Proof.ResultArray
import proofs.«107709_j11020886082286_1_alg».proof.Proof.SpecLaw

noncomputable section

namespace Cert.KernelIdeal.Total

open Cert.KernelIdeal Cert.KernelIdeal.Gen Cert.KernelIdeal.Frame Cert.KernelIdeal.Point Cert.KernelIdeal.TileValue
open Cert.KernelIdeal.Blocks Cert.KernelIdeal.Result Cert.ExpertSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The three argument arrays on core `c`. -/
abbrev X : AX.Idx → EReal := m ((c : Thread nD τ).loc main_arg0)
abbrev W : AW.Idx → EReal := m ((c : Thread nD τ).loc main_arg1)
abbrev D : AD.Idx → EReal := m ((c : Thread nD τ).loc main_arg2)

/-! ## One point -/

set_option maxHeartbeats 1000000 in
/-- At feature tile 0 the accumulator ends at zero plus the tile's share. -/
theorem acc_first (t : Fin cfg0.N) (h0 : t.val % 8 = 0) (h1 : ¬t.val % 8 = 7) (r : Fin 256) (h : Fin 2048) :
    (outsAt0 m c t.val t.isLt).2 (ix2 r h) = 0 + tile (X m c) (W m c) (D m c) (eOf t) (rowOf t r) h (t.val % 8) := by
  rw [outsAt0_A m c t h0 h1]
  dsimp only
  rw [sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)]
  refine (pay2_apply (iblk m c 0 t) (iblk m c 1 t) (iblk m c 2 t) (iblk m c 3 t) _ r h).trans ?_
  rw [pay1_apply, tile_eq]

set_option maxHeartbeats 1000000 in
/-- At a middle feature tile it ends at what the point before left plus the tile's share. -/
theorem acc_middle (t : Fin cfg0.N) (h0 : ¬t.val % 8 = 0) (h1 : ¬t.val % 8 = 7) (r : Fin 256) (h : Fin 2048) :
    (outsAt0 m c t.val t.isLt).2 (ix2 r h)
      = (outsAt0 m c (t.val - 1) (Nat.lt_of_le_of_lt (Nat.sub_le _ _) t.isLt)).2 (ix2 r h) + tile (X m c) (W m c) (D m c) (eOf t) (rowOf t r) h (t.val % 8) := by
  rw [outsAt0_B m c t h0 h1]
  dsimp only
  rw [sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2]
  refine (pay2_apply (iblk m c 0 t) (iblk m c 1 t) (iblk m c 2 t) (iblk m c 3 t) _ r h).trans ?_
  rw [tile_eq]

set_option maxHeartbeats 1000000 in
/-- At feature tile 7 the result tile ends at what the point before left in the accumulator plus the tile's share. -/
theorem out_last (t : Fin cfg0.N) (h0 : ¬t.val % 8 = 0) (h1 : t.val % 8 = 7) (r : Fin 256) (h : Fin 2048) :
    (outsAt0 m c t.val t.isLt).1 (ix3 (0 : Fin 1) r h)
      = (outsAt0 m c (t.val - 1) (Nat.lt_of_le_of_lt (Nat.sub_le _ _) t.isLt)).2 (ix2 r h) + tile (X m c) (W m c) (D m c) (eOf t) (rowOf t r) h (t.val % 8) := by
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  refine (pay3_apply _ r h).trans ?_
  refine (pay2_apply (iblk m c 0 t) (iblk m c 1 t) (iblk m c 2 t) (iblk m c 3 t) _ r h).trans ?_
  rw [tile_eq]

/-! ## All points -/

/-- Inside a run of eight points the expert and the token rows stay, and the feature tile advances by one. -/
theorem step_coords (n : ℕ) (hn : n + 1 < cfg0.N) (h0 : ¬(n + 1) % 8 = 0) (r : Fin 256) :
    eOf ⟨n, Nat.lt_of_succ_lt hn⟩ = eOf ⟨n + 1, hn⟩ ∧ rowOf ⟨n, Nat.lt_of_succ_lt hn⟩ r = rowOf ⟨n + 1, hn⟩ r ∧ (n + 1) % 8 = n % 8 + 1 :=
  ⟨Fin.ext (by simp only [eOf]; omega), Fin.ext (by simp only [rowOf]; omega), by omega⟩

/-- The accumulator after point `n`, for `n` not of feature tile 7, is the running total up to feature tile `n % 8`. -/
theorem acc_eq : ∀ (n : ℕ) (hn : n < cfg0.N), n % 8 ≠ 7 → ∀ (r : Fin 256) (h : Fin 2048),
    (outsAt0 m c n hn).2 (ix2 r h) = accN (X m c) (W m c) (D m c) (eOf ⟨n, hn⟩) (rowOf ⟨n, hn⟩ r) h (n % 8)
  | 0, hn, _, r, h => acc_first m c ⟨0, hn⟩ rfl (by show ¬(0 : ℕ) % 8 = 7; omega) r h
  | n + 1, hn, h7, r, h => by
    by_cases h0 : (n + 1) % 8 = 0
    · refine (acc_first m c ⟨n + 1, hn⟩ h0 h7 r h).trans ?_
      show _ = accN _ _ _ _ _ _ ((n + 1) % 8)
      rw [h0]
      rfl
    · obtain ⟨he, hr, hf⟩ := step_coords n hn h0 r
      have ih : (outsAt0 m c ((⟨n + 1, hn⟩ : Fin cfg0.N).val - 1) (Nat.lt_of_le_of_lt (Nat.sub_le _ _) hn)).2 (ix2 r h)
          = accN (X m c) (W m c) (D m c) (eOf ⟨n, Nat.lt_of_succ_lt hn⟩) (rowOf ⟨n, Nat.lt_of_succ_lt hn⟩ r) h (n % 8) :=
        acc_eq n (Nat.lt_of_succ_lt hn) (by omega) r h
      refine (acc_middle m c ⟨n + 1, hn⟩ h0 h7 r h).trans ?_
      rw [ih, he, hr]
      show _ = accN _ _ _ _ _ _ ((n + 1) % 8)
      rw [hf]
      rfl

/-- At a point of feature tile 7 the result tile holds the whole sum over the features. -/
theorem tile7_eq (t : Fin cfg0.N) (h7 : t.val % 8 = 7) (r : Fin 256) (h : Fin 2048) :
    (outsAt0 m c t.val t.isLt).1 (ix3 (0 : Fin 1) r h) = out (X m c) (W m c) (D m c) (eOf t) (rowOf t r) h := by
  obtain ⟨n, hn⟩ := t
  cases n with
  | zero => exact absurd h7 (by show ¬(0 : ℕ) % 8 = 7; omega)
  | succ n =>
    have h7' : (n + 1) % 8 = 7 := h7
    have h0 : ¬(n + 1) % 8 = 0 := by omega
    obtain ⟨he, hr, hf⟩ := step_coords n hn h0 r
    have ih : (outsAt0 m c ((⟨n + 1, hn⟩ : Fin cfg0.N).val - 1) (Nat.lt_of_le_of_lt (Nat.sub_le _ _) hn)).2 (ix2 r h)
        = accN (X m c) (W m c) (D m c) (eOf ⟨n, Nat.lt_of_succ_lt hn⟩) (rowOf ⟨n, Nat.lt_of_succ_lt hn⟩ r) h (n % 8) :=
      acc_eq m c n (Nat.lt_of_succ_lt hn) (by omega) r h
    refine (out_last m c ⟨n + 1, hn⟩ h0 h7 r h).trans ?_
    rw [ih, he, hr, ← accN_last]
    have h6 : n % 8 = 6 := by omega
    show accN _ _ _ _ _ _ (n % 8) + tile _ _ _ _ _ _ ((n + 1) % 8) = _
    rw [h6, h7']
    rfl

/-- The result array: entry `(e, t, h)` is the result for expert `e`, token `t`, hidden unit `h`. -/
def R : S8x1024x2048.Idx → EReal := fun i => out (X m c) (W m c) (D m c) (i 0) (i 1) (i 2)

theorem final_R : (dats m 0 c).arrAt 4 cfg0.N = R m c :=
  final_of m c (R m c) fun t h7 r h => tile7_eq m c t h7 r h

/-- The program's result buffer ends at the specification of the three arguments. -/
theorem result_eq : Pipeline.afterTail₀ cfgs (dats m) 0 (V0 m) [hostOps1] c main_v5 = G (X m c) (W m c) (D m c) := by
  funext i
  obtain ⟨i0, i1, rfl⟩ : ∃ (i0 : Fin 8192) (i1 : Fin 2048), i = ix2 i0 i1 := ⟨i 0, i 1, eq_ix2 i⟩
  rw [tail_apply, final_R]
  rfl

/-- Every weakly fair execution of the program terminates with its result at the specification and its arguments unchanged. -/
theorem run : θ_run defs (onTc (τ := τ) (main (F := Ideal))) ⟨m, fun _ => 0, ρ⟩ (fun r => ∀ c : Dev nD,
      r.2.mem ((c.tc : Thread nD τ).loc main_v5) = G (X m c) (W m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m c),
     ((h c).2 main_arg0 (Pipeline.mem_restRefs_of main_arg0 (by decide) (by decide))).trans ((tail_keeps m (dats m) c main_arg0 (by decide) (by decide)).trans (V_main_arg0 m c)),
     ((h c).2 main_arg1 (Pipeline.mem_restRefs_of main_arg1 (by decide) (by decide))).trans ((tail_keeps m (dats m) c main_arg1 (by decide) (by decide)).trans (V_main_arg1 m c)),
     ((h c).2 main_arg2 (Pipeline.mem_restRefs_of main_arg2 (by decide) (by decide))).trans ((tail_keeps m (dats m) c main_arg2 (by decide) (by decide)).trans (V_main_arg2 m c))⟩) (run_main m ρ)

end Cert.KernelIdeal.Total

end
-- ==== Proof.RefValue.lean ====
/-
  The reference program computes the specification `G`.

  Reading the reference one operation at a time: the hidden states `[8192, 2048]` are regrouped as `[8, 1024, 2048]`, so
  entry `(e, t, k)` is entry `(e·1024 + t, k)` of the argument; the first contraction gives, at `(e, t, c)`, the sum over `k`
  of that entry times the weight at `(e, k, c)`, which is `proj e t c`; the two slices read columns `f` and `4096 + f`, the
  gate and the up column of feature `f`; the expansion `x · (1 / (1 + e^(-x)))` of the gate is `x · logistic x` by the
  definition of `logistic`; the product with the up column is `inter e t f`; the second contraction sums `inter e t f` times
  the down weight at `(e, f, h)` over `f`, which is `out e t h`; and the final regrouping reads row `i₀` of the result
  `[8192, 2048]` at `(i₀ / 1024, i₀ % 1024, ·)`.
-/
import proofs.«107709_j11020886082286_1_alg».proof.Proof.Spec
import proofs.«107709_j11020886082286_1_alg».proof.Proof.Gen.ReferenceIdeal.Read
import Idealize.ShloMosaic.Lib.IdealHost

noncomputable section

namespace Cert.ReferenceIdeal.RefValue

open Cert.ReferenceIdeal Cert.ReferenceIdeal.Read Cert.ExpertSpec
open Idealize.ShloMosaic Idealize.ShloMosaic.ValueIdx

variable (x0 : (⟨S8192x2048, .f32⟩ : BufTy).Contents (Elt Ideal))
  (x1 : (⟨S8x2048x8192, .f32⟩ : BufTy).Contents (Elt Ideal))
  (x2 : (⟨S8x4096x2048, .f32⟩ : BufTy).Contents (Elt Ideal))

/-! ### Index equations: the generated index functions at coordinates -/

/-- The regrouped hidden states at `(e, t, k)` read the argument at row `e·1024 + t`, column `k`. -/
theorem idx_v0_eq (e : Fin 8) (t : Fin 1024) (c : Fin 8192) (k : Fin 2048) :
    idx_main_v0 (lidx_main_v1 (ix3 e t c) k) = ix2 (tokRow e t) k :=
  funext fun a => Fin.ext (by
    have he : e.val < 8 := e.isLt
    have ht : t.val < 1024 := t.isLt
    have hk : k.val < 2048 := k.isLt
    match a with
    | ⟨0, _⟩ => show ((e.val * 1024 + t.val) * 2048 + k.val) / 2048 = e.val * 1024 + t.val; omega
    | ⟨1, _⟩ => show ((e.val * 1024 + t.val) * 2048 + k.val) % 2048 = k.val; omega)

theorem ridx_v1_eq (e : Fin 8) (t : Fin 1024) (c : Fin 8192) (k : Fin 2048) :
    ridx_main_v1 (ix3 e t c) k = ix3 e k c :=
  funext fun a => by
    match a with
    | ⟨0, _⟩ => rfl
    | ⟨1, _⟩ => rfl
    | ⟨2, _⟩ => rfl

theorem idx_v2_eq (e : Fin 8) (t : Fin 1024) (f : Fin 4096) :
    idx_main_v2 (ix3 e t f) = ix3 e t (gateCol f) :=
  funext fun a => by
    match a with
    | ⟨0, _⟩ => rfl
    | ⟨1, _⟩ => rfl
    | ⟨2, _⟩ => rfl

theorem idx_v3_eq (e : Fin 8) (t : Fin 1024) (f : Fin 4096) :
    idx_main_v3 (ix3 e t f) = ix3 e t (upCol f) :=
  funext fun a => by
    match a with
    | ⟨0, _⟩ => rfl
    | ⟨1, _⟩ => rfl
    | ⟨2, _⟩ => rfl

theorem lidx_v6_eq (e : Fin 8) (t : Fin 1024) (h : Fin 2048) (f : Fin 4096) :
    lidx_main_v6 (ix3 e t h) f = ix3 e t f :=
  funext fun a => by
    match a with
    | ⟨0, _⟩ => rfl
    | ⟨1, _⟩ => rfl
    | ⟨2, _⟩ => rfl

theorem ridx_v6_eq (e : Fin 8) (t : Fin 1024) (h : Fin 2048) (f : Fin 4096) :
    ridx_main_v6 (ix3 e t h) f = ix3 e f h :=
  funext fun a => by
    match a with
    | ⟨0, _⟩ => rfl
    | ⟨1, _⟩ => rfl
    | ⟨2, _⟩ => rfl

/-- The final regrouping reads row `i₀`, column `i₁` at `(i₀ / 1024, i₀ % 1024, i₁)`. -/
theorem idx_v7_eq (i : S8192x2048.Idx) :
    idx_main_v7 i = ix3
      (⟨(i 0).val / 1024, by have h := idx2_lt0 i; omega⟩ : Fin 8)
      (⟨(i 0).val % 1024, Nat.mod_lt _ (by norm_num)⟩ : Fin 1024) (i 1) :=
  funext fun a => Fin.ext (by
    have h0 := idx2_lt0 i
    have h1 := idx2_lt1 i
    match a with
    | ⟨0, _⟩ => show ((i 0).val * 2048 + (i 1).val) / 2097152 = (i 0).val / 1024; omega
    | ⟨1, _⟩ => show ((i 0).val * 2048 + (i 1).val) / 2048 % 1024 = (i 0).val % 1024; omega
    | ⟨2, _⟩ => show ((i 0).val * 2048 + (i 1).val) % 2048 = (i 1).val; omega)

/-! ### The stages at coordinates -/

/-- The first contraction at `(e, t, c)` is the projection of token `t` of expert `e` onto column `c`. -/
theorem v1_eq_proj (e : Fin 8) (t : Fin 1024) (c : Fin 8192) :
    val_main_v1 (F := Ideal) x0 x1 (ix3 e t c) = proj x0 x1 e t c := by
  rw [val_main_v1_apply]
  unfold proj
  refine Finset.sum_congr rfl fun k _ => ?_
  rw [val_main_v0_apply, idx_v0_eq, ridx_v1_eq]

/-- The first slice at `(e, t, f)` is the gate projection of feature `f`. -/
theorem v2_eq_gate (e : Fin 8) (t : Fin 1024) (f : Fin 4096) :
    val_main_v2 (F := Ideal) x0 x1 (ix3 e t f) = proj x0 x1 e t (gateCol f) := by
  rw [val_main_v2_apply, idx_v2_eq, v1_eq_proj]

/-- The second slice at `(e, t, f)` is the up projection of feature `f`. -/
theorem v3_eq_up (e : Fin 8) (t : Fin 1024) (f : Fin 4096) :
    val_main_v3 (F := Ideal) x0 x1 (ix3 e t f) = proj x0 x1 e t (upCol f) := by
  rw [val_main_v3_apply, idx_v3_eq, v1_eq_proj]

/-- The product `up · (gate · (1 / (1 + e^(-gate))))` at `(e, t, f)` is the intermediate activation. -/
theorem v5_eq_inter (e : Fin 8) (t : Fin 1024) (f : Fin 4096) :
    val_main_v5 (F := Ideal) x0 x1 (ix3 e t f) = inter x0 x1 e t f := by
  rw [val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, v2_eq_gate, v3_eq_up]
  simp only [Ideal.mulf_def, Ideal.hostDivf_def, Ideal.addf_def, Ideal.hostUnary_exp_def, Ideal.hostNegf_def,
    Ideal.negf_def, Ideal.ofBits_def, Ideal.ofBits_one_f32]
  rfl

/-- The second contraction at `(e, t, h)` is the result for expert `e`, token `t`, hidden unit `h`. -/
theorem v6_eq_out (e : Fin 8) (t : Fin 1024) (h : Fin 2048) :
    val_main_v6 (F := Ideal) x0 x1 x2 (ix3 e t h) = out x0 x1 x2 e t h := by
  rw [val_main_v6_apply]
  unfold out
  refine Finset.sum_congr rfl fun f _ => ?_
  rw [lidx_v6_eq, ridx_v6_eq, v5_eq_inter]

/-- The reference's result is the specification. -/
theorem ref_eq_G (x0 : (⟨S8192x2048, .f32⟩ : BufTy).Contents (Elt Ideal))
    (x1 : (⟨S8x2048x8192, .f32⟩ : BufTy).Contents (Elt Ideal))
    (x2 : (⟨S8x4096x2048, .f32⟩ : BufTy).Contents (Elt Ideal)) :
    Cert.ReferenceIdeal.Read.val_main_v7 (F := Ideal) x0 x1 x2 = Cert.ExpertSpec.G x0 x1 x2 := by
  funext i
  rw [val_main_v7_apply, idx_v7_eq]
  exact v6_eq_out x0 x1 x2 _ _ _

end Cert.ReferenceIdeal.RefValue

end
-- ==== Proof.lean ====
/-
  The expert layer of a mixture-of-experts block: for each of 8 experts, its 1024 tokens are projected onto the expert's
  gate and up weights, combined as `up · (gate · logistic gate)`, and projected back through the expert's down weights.

  The kernel walks a grid of expert × token tile × feature tile and keeps, for each expert and token tile, a running total
  over the eight feature tiles; the reference takes each sum over all 4096 features at once. Over the extended reals every
  float format change is the identity, `logistic x` is `1 / (1 + e⁻ˣ)` on both sides, and a sum over 4096 features is the
  same whether taken at once or as eight tile sums added one after another to zero — addition is commutative and
  associative there, infinities included, so the precondition is never opened. Both programs therefore end at the one
  function `Cert.ExpertSpec.G` of the three arguments.

  The three programs' runs: each kernel program terminates with its arguments unchanged (the pipeline's run, with the
  gate/up weight array read through two windows); the reference's run is its sixteen host operations composed.
-/
import proofs.«107709_j11020886082286_1_alg».proof.Defs
import proofs.«107709_j11020886082286_1_alg».proof.Proof.Gen.Kernel
import proofs.«107709_j11020886082286_1_alg».proof.Proof.Gen.KernelIdeal
import proofs.«107709_j11020886082286_1_alg».proof.Proof.Gen.ReferenceIdeal
import proofs.«107709_j11020886082286_1_alg».proof.Proof.Gen.ReferenceIdeal.Run
import proofs.«107709_j11020886082286_1_alg».proof.Proof.Gen.ReferenceIdeal.Read
import proofs.«107709_j11020886082286_1_alg».proof.Proof.Gen.Pre_finite_inputs
import proofs.«107709_j11020886082286_1_alg».proof.Proof.KFrameRun
import proofs.«107709_j11020886082286_1_alg».proof.Proof.KernelResult
import proofs.«107709_j11020886082286_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance the kernel's result buffer ends at `G` of its arguments and the reference's at the composed
    term of its own, which is `G` of them; the arguments agree. -/
theorem algebraic : Cert.algebraic_KernelIdeal_ReferenceIdeal := by
  intro m ρ m' ρ' _ hagree
  refine ⟨fun c => Cert.ExpertSpec.G (Cert.KernelIdeal.Total.X m c) (Cert.KernelIdeal.Total.W m c) (Cert.KernelIdeal.Total.D m c),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
